-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1280 : Shape := ⟨3, ![16, 4096, 1280]⟩
abbrev S16 : Shape := ⟨1, ![16]⟩
abbrev S1280x1280 : Shape := ⟨2, ![1280, 1280]⟩
abbrev S50x4x1280 : Shape := ⟨3, ![50, 4, 1280]⟩
abbrev S50x1280x4 : Shape := ⟨3, ![50, 1280, 4]⟩
abbrev S_ : Shape := ⟨0, ![]⟩

class Facts : Prop where
  bcast_S_S16x4096x1280 : S_.BroadcastsInDim S16x4096x1280 (![] : Fin 0 → Fin S16x4096x1280.rank)
  reducesTo_S16x4096x1280_S_d0_1_2 : S16x4096x1280.ReducesTo [0, 1, 2] S_
  h_S_ : 0 < S_.numel
  bcast_S_S1280x1280 : S_.BroadcastsInDim S1280x1280 (![] : Fin 0 → Fin S1280x1280.rank)
  reducesTo_S1280x1280_S_d0_1 : S1280x1280.ReducesTo [0, 1] S_
  bcast_S_S50x4x1280 : S_.BroadcastsInDim S50x4x1280 (![] : Fin 0 → Fin S50x4x1280.rank)
  reducesTo_S50x4x1280_S_d0_1_2 : S50x4x1280.ReducesTo [0, 1, 2] S_
  bcast_S_S50x1280x4 : S_.BroadcastsInDim S50x1280x4 (![] : Fin 0 → Fin S50x1280x4.rank)
  reducesTo_S50x1280x4_S_d0_1_2 : S50x1280x4.ReducesTo [0, 1, 2] S_

variable [Facts]

def fn_part1 {F : FTy → Type} [FloatOps F] (main_v13 : IVec S_ 1) (main_v16 : IVec S50x1280x4 1) : IVec S_ 1 :=
  let main_c_5 : IVec S_ 1 := constantI S_ 1 1#1
  let main_v17 : IVec S_ 1 := (fun x v => Host.reduce IntOp.andi x v reducesTo_S50x1280x4_S_d0_1_2 h_S_) main_v16 main_c_5
  let main_v18 : IVec S_ 1 := andi main_v13 main_v17
  main_v18

def fn {F : FTy → Type} [FloatOps F] (main_arg0 : FVec F S16x4096x1280 .f32) (main_arg1 : IVec S16 32) (main_arg2 : FVec F S1280x1280 .f32) (main_arg3 : FVec F S50x4x1280 .f32) (main_arg4 : FVec F S50x1280x4 .f32) : IVec S_ 1 :=
  let main_v0 : FVec F S16x4096x1280 .f32 := Host.absf main_arg0
  let main_cst : FVec F S_ .f32 := constant S_ .f32 0x7F800000#32
  let main_v1 : FVec F S16x4096x1280 .f32 := broadcastInDim S16x4096x1280 ![] bcast_S_S16x4096x1280 main_cst
  let main_v2 : IVec S16x4096x1280 1 := cmpf .olt main_v0 main_v1
  let main_c : IVec S_ 1 := constantI S_ 1 1#1
  let main_v3 : IVec S_ 1 := (fun x v => Host.reduce IntOp.andi x v reducesTo_S16x4096x1280_S_d0_1_2 h_S_) main_v2 main_c
  let main_v4 : FVec F S1280x1280 .f32 := Host.absf main_arg2
  let main_cst_0 : FVec F S_ .f32 := constant S_ .f32 0x7F800000#32
  let main_v5 : FVec F S1280x1280 .f32 := broadcastInDim S1280x1280 ![] bcast_S_S1280x1280 main_cst_0
  let main_v6 : IVec S1280x1280 1 := cmpf .olt main_v4 main_v5
  let main_c_1 : IVec S_ 1 := constantI S_ 1 1#1
  let main_v7 : IVec S_ 1 := (fun x v => Host.reduce IntOp.andi x v reducesTo_S1280x1280_S_d0_1 h_S_) main_v6 main_c_1
  let main_v8 : IVec S_ 1 := andi main_v3 main_v7
  let main_v9 : FVec F S50x4x1280 .f32 := Host.absf main_arg3
  let main_cst_2 : FVec F S_ .f32 := constant S_ .f32 0x7F800000#32
  let main_v10 : FVec F S50x4x1280 .f32 := broadcastInDim S50x4x1280 ![] bcast_S_S50x4x1280 main_cst_2
  let main_v11 : IVec S50x4x1280 1 := cmpf .olt main_v9 main_v10
  let main_c_3 : IVec S_ 1 := constantI S_ 1 1#1
  let main_v12 : IVec S_ 1 := (fun x v => Host.reduce IntOp.andi x v reducesTo_S50x4x1280_S_d0_1_2 h_S_) main_v11 main_c_3
  let main_v13 : IVec S_ 1 := andi main_v8 main_v12
  let main_v14 : FVec F S50x1280x4 .f32 := Host.absf main_arg4
  let main_cst_4 : FVec F S_ .f32 := constant S_ .f32 0x7F800000#32
  let main_v15 : FVec F S50x1280x4 .f32 := broadcastInDim S50x1280x4 ![] bcast_S_S50x1280x4 main_cst_4
  let main_v16 : IVec S50x1280x4 1 := cmpf .olt main_v14 main_v15
  fn_part1 (F := F) main_v13 main_v16
-- ==== Kernel.lean ====
abbrev S16x4096x1280 : Shape := ⟨3, ![16, 4096, 1280]⟩
abbrev S16 : Shape := ⟨1, ![16]⟩
abbrev S1280x1280 : Shape := ⟨2, ![1280, 1280]⟩
abbrev S50x4x1280 : Shape := ⟨3, ![50, 4, 1280]⟩
abbrev S50x1280x4 : Shape := ⟨3, ![50, 1280, 4]⟩
abbrev S_ : Shape := ⟨0, ![]⟩
abbrev S16x1x1 : Shape := ⟨3, ![16, 1, 1]⟩
abbrev S16x1 : Shape := ⟨2, ![16, 1]⟩
abbrev S16x4x1280 : Shape := ⟨3, ![16, 4, 1280]⟩
abbrev S16x1280x4 : Shape := ⟨3, ![16, 1280, 4]⟩
abbrev S1x512x1280 : Shape := ⟨3, ![1, 512, 1280]⟩
abbrev S1x4x1280 : Shape := ⟨3, ![1, 4, 1280]⟩
abbrev S1x1280x4 : Shape := ⟨3, ![1, 1280, 4]⟩
abbrev S512x1280 : Shape := ⟨2, ![512, 1280]⟩
abbrev S4x1280 : Shape := ⟨2, ![4, 1280]⟩
abbrev S512x4 : Shape := ⟨2, ![512, 4]⟩
abbrev S1280x4 : Shape := ⟨2, ![1280, 4]⟩

abbrev nBuf : Space → Nat
  | .hbm => 61
  | .vmem => 9
  | .smem => 0
  | _ => 0

abbrev bufTy : (tb : Table) → Fin (tcTables nBuf tb) → BufTy
  | .hbm, ⟨0, _⟩ => ⟨S16x4096x1280, .f32⟩
  | .hbm, ⟨1, _⟩ => ⟨S16, .i32⟩
  | .hbm, ⟨2, _⟩ => ⟨S1280x1280, .f32⟩
  | .hbm, ⟨3, _⟩ => ⟨S50x4x1280, .f32⟩
  | .hbm, ⟨4, _⟩ => ⟨S50x1280x4, .f32⟩
  | .hbm, ⟨5, _⟩ => ⟨S_, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i1⟩
  | .hbm, ⟨13, _⟩ => ⟨S16, .i32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S16, .i1⟩
  | .hbm, ⟨19, _⟩ => ⟨S_, .i32⟩
  | .hbm, ⟨20, _⟩ => ⟨S16, .i32⟩
  | .hbm, ⟨21, _⟩ => ⟨S16, .i32⟩
  | .hbm, ⟨22, _⟩ => ⟨S16, .i32⟩
  | .hbm, ⟨23, _⟩ => ⟨S_, .i32⟩
  | .hbm, ⟨24, _⟩ => ⟨S16, .i32⟩
  | .hbm, ⟨25, _⟩ => ⟨S16, .i1⟩
  | .hbm, ⟨26, _⟩ => ⟨S_, .i32⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S16, .f32⟩
  | .hbm, ⟨31, _⟩ => ⟨S16x1x1, .f32⟩
  | .hbm, ⟨32, _⟩ => ⟨S_, .i32⟩
  | .hbm, ⟨33, _⟩ => ⟨S16, .i32⟩
  | .hbm, ⟨34, _⟩ => ⟨S16, .i1⟩
  | .hbm, ⟨35, _⟩ => ⟨S_, .i32⟩
  | .hbm, ⟨36, _⟩ => ⟨S16, .i32⟩
  | .hbm, ⟨37, _⟩ => ⟨S16, .i32⟩
  | .hbm, ⟨38, _⟩ => ⟨S16, .i32⟩
  | .hbm, ⟨39, _⟩ => ⟨S16x1, .i32⟩
  | .hbm, ⟨40, _⟩ => ⟨S16x4x1280, .f32⟩
  | .hbm, ⟨41, _⟩ => ⟨S16x4x1280, .f32⟩
  | .hbm, ⟨42, _⟩ => ⟨S16x4x1280, .f32⟩
  | .hbm, ⟨43, _⟩ => ⟨S_, .i32⟩
  | .hbm, ⟨44, _⟩ => ⟨S16, .i32⟩
  | .hbm, ⟨45, _⟩ => ⟨S16, .i1⟩
  | .hbm, ⟨46, _⟩ => ⟨S_, .i32⟩
  | .hbm, ⟨47, _⟩ => ⟨S16, .i32⟩
  | .hbm, ⟨48, _⟩ => ⟨S16, .i32⟩
  | .hbm, ⟨49, _⟩ => ⟨S16, .i32⟩
  | .hbm, ⟨50, _⟩ => ⟨S16x1, .i32⟩
  | .hbm, ⟨51, _⟩ => ⟨S16x1280x4, .f32⟩
  | .hbm, ⟨52, _⟩ => ⟨S_, .f32⟩
  | .hbm, ⟨53, _⟩ => ⟨S16x1280x4, .f32⟩
  | .hbm, ⟨54, _⟩ => ⟨S16x1280x4, .f32⟩
  | .hbm, ⟨55, _⟩ => ⟨S16x1280x4, .f32⟩
  | .hbm, ⟨56, _⟩ => ⟨S16x1280x4, .f32⟩
  | .hbm, ⟨57, _⟩ => ⟨S1280x1280, .bf16⟩
  | .hbm, ⟨58, _⟩ => ⟨S16x4x1280, .bf16⟩
  | .hbm, ⟨59, _⟩ => ⟨S16x1280x4, .bf16⟩
  | .hbm, ⟨60, _⟩ => ⟨S16x4096x1280, .f32⟩
  | .local _ .vmem, ⟨0, _⟩ => ⟨S1x512x1280, .f32⟩
  | .local _ .vmem, ⟨1, _⟩ => ⟨S1x512x1280, .f32⟩
  | .local _ .vmem, ⟨2, _⟩ => ⟨S1280x1280, .bf16⟩
  | .local _ .vmem, ⟨3, _⟩ => ⟨S1x4x1280, .bf16⟩
  | .local _ .vmem, ⟨4, _⟩ => ⟨S1x4x1280, .bf16⟩
  | .local _ .vmem, ⟨5, _⟩ => ⟨S1x1280x4, .bf16⟩
  | .local _ .vmem, ⟨6, _⟩ => ⟨S1x1280x4, .bf16⟩
  | .local _ .vmem, ⟨7, _⟩ => ⟨S1x512x1280, .f32⟩
  | .local _ .vmem, ⟨8, _⟩ => ⟨S1x512x1280, .f32⟩
  | _, _ => ⟨S16x4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v0 : Ref sig .tc := ⟨.hbm, 22, rfl⟩
abbrev main_c_0 : Ref sig .tc := ⟨.hbm, 23, rfl⟩
abbrev main_v1 : Ref sig .tc := ⟨.hbm, 24, rfl⟩
abbrev main_v2 : Ref sig .tc := ⟨.hbm, 25, rfl⟩
abbrev main_c_1 : Ref sig .tc := ⟨.hbm, 26, rfl⟩
abbrev main_call1_v0 : Ref sig .tc := ⟨.hbm, 27, rfl⟩
abbrev main_call1_v1 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_c_2 : Ref sig .tc := ⟨.hbm, 32, rfl⟩
abbrev main_v6 : Ref sig .tc := ⟨.hbm, 33, rfl⟩
abbrev main_v7 : Ref sig .tc := ⟨.hbm, 34, rfl⟩
abbrev main_c_3 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_4 : Ref sig .tc := ⟨.hbm, 43, rfl⟩
abbrev main_v15 : Ref sig .tc := ⟨.hbm, 44, rfl⟩
abbrev main_v16 : Ref sig .tc := ⟨.hbm, 45, rfl⟩
abbrev main_c_5 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1280x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1280x4 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S16 : S_.BroadcastsInDim S16 (![] : Fin 0 → Fin S16.rank)
  bcast_S16_S16x1x1_0 : S16.BroadcastsInDim S16x1x1 (![0] : Fin 1 → Fin S16x1x1.rank)
  bcast_S16_S16x1_0 : S16.BroadcastsInDim S16x1 (![0] : Fin 1 → Fin S16x1.rank)
  bcast_S16x1x1_S16x4x1280_0_1_2 : S16x1x1.BroadcastsInDim S16x4x1280 (![0, 1, 2] : Fin 3 → Fin S16x4x1280.rank)
  bcast_S_S16x1280x4 : S_.BroadcastsInDim S16x1280x4 (![] : Fin 0 → Fin S16x1280x4.rank)
  bcast_S16x1x1_S16x1280x4_0_1_2 : S16x1x1.BroadcastsInDim S16x1280x4 (![0, 1, 2] : Fin 3 → Fin S16x1280x4.rank)
  bitsLt_bf16_f32 : FTy.bits .bf16 < FTy.bits .f32
  inb_S1x512x1280_S1x512x1280_0_0_0 : ∀ a, (![0, 0, 0] : Fin 3 → Nat) a + S1x512x1280.size a ≤ S1x512x1280.size a
  h_S1x512x1280 : 0 < S1x512x1280.numel
  shapeCasts_S1x512x1280_S512x1280 : S1x512x1280.ShapeCasts S512x1280
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  inb_S1x4x1280_S1x4x1280_0_0_0 : ∀ a, (![0, 0, 0] : Fin 3 → Nat) a + S1x4x1280.size a ≤ S1x4x1280.size a
  h_S1x4x1280 : 0 < S1x4x1280.numel
  shapeCasts_S1x4x1280_S4x1280 : S1x4x1280.ShapeCasts S4x1280
  inb_S1x1280x4_S1x1280x4_0_0_0 : ∀ a, (![0, 0, 0] : Fin 3 → Nat) a + S1x1280x4.size a ≤ S1x1280x4.size a
  h_S1x1280x4 : 0 < S1x1280x4.numel
  shapeCasts_S1x1280x4_S1280x4 : S1x1280x4.ShapeCasts S1280x4
  shapeCasts_S512x1280_S1x512x1280 : S512x1280.ShapeCasts S1x512x1280
  gather_S50x4x1280_S16x1_S16x4x1280_12_0_n_n_0_1_141280_wf : GatherDims.WF S50x4x1280 S16x1 S16x4x1280 [1, 2] [0] [] [0] [] 1 ![1, 4, 1280]
  gather_S50x1280x4_S16x1_S16x1280x4_12_0_n_n_0_1_112804_wf : GatherDims.WF S50x1280x4 S16x1 S16x1280x4 [1, 2] [0] [] [0] [] 1 ![1, 1280, 4]
  dot_S512x1280_S1280x1280_S512x1280_1_1_0_0_n_n_wf : DotDims.WF S512x1280 S1280x1280 S512x1280 [1] [1] [0] [0] [] []
  dot_S512x1280_S4x1280_S512x4_1_1_0_0_n_n_wf : DotDims.WF S512x1280 S4x1280 S512x4 [1] [1] [0] [0] [] []
  dot_S512x4_S1280x4_S512x1280_1_1_0_0_n_n_wf : DotDims.WF S512x4 S1280x4 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1280.size a ≤ S16x4096x1280.size a
  hwx0_0 : ∀ i : grid0.Coords, EltTy.bits .f32 = 32 ∨ (Rect.block (s := S16x4096x1280) S1x512x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x1280.size a ≤ S1280x1280.size a
  hwx0_1 : ∀ i : grid0.Coords, EltTy.bits .bf16 = 32 ∨ (Rect.block (s := S1280x1280) S1280x1280.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x1280.size a ≤ S16x4x1280.size a
  hwx0_2 : ∀ i : grid0.Coords, EltTy.bits .bf16 = 32 ∨ (Rect.block (s := S16x4x1280) S1x4x1280.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1280x4.size a ≤ S16x1280x4.size a
  hwx0_3 : ∀ i : grid0.Coords, EltTy.bits .bf16 = 32 ∨ (Rect.block (s := S16x1280x4) S1x1280x4.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1280.size a ≤ S16x4096x1280.size a
  hwx0_4 : ∀ i : grid0.Coords, EltTy.bits .f32 = 32 ∨ (Rect.block (s := S16x4096x1280) S1x512x1280.size (cc0_transform_4 i) (hinb0_4 i)).WholeWords (EltTy.packing .f32)

variable [Facts₀]

def gather_S50x4x1280_S16x1_S16x4x1280_12_0_n_n_0_1_141280 : GatherDims S50x4x1280 S16x1 S16x4x1280 where
  offsetDims := [1, 2]
  collapsedSliceDims := [0]
  operandBatchingDims := []
  startIndicesBatchingDims := []
  startIndexMap := [0]
  indexVectorDim := 1
  sliceSizes := ![1, 4, 1280]
  wf := gather_S50x4x1280_S16x1_S16x4x1280_12_0_n_n_0_1_141280_wf
def gather_S50x1280x4_S16x1_S16x1280x4_12_0_n_n_0_1_112804 : GatherDims S50x1280x4 S16x1 S16x1280x4 where
  offsetDims := [1, 2]
  collapsedSliceDims := [0]
  operandBatchingDims := []
  startIndicesBatchingDims := []
  startIndexMap := [0]
  indexVectorDim := 1
  sliceSizes := ![1, 1280, 4]
  wf := gather_S50x1280x4_S16x1_S16x1280x4_12_0_n_n_0_1_112804_wf
def dot_S512x1280_S1280x1280_S512x1280_1_1_0_0_n_n : DotDims S512x1280 S1280x1280 S512x1280 where
  lhsContracting := [1]
  rhsContracting := [1]
  lhsNonContracting := [0]
  rhsNonContracting := [0]
  lhsBatch := []
  rhsBatch := []
  wf := dot_S512x1280_S1280x1280_S512x1280_1_1_0_0_n_n_wf
def dot_S512x1280_S4x1280_S512x4_1_1_0_0_n_n : DotDims S512x1280 S4x1280 S512x4 where
  lhsContracting := [1]
  rhsContracting := [1]
  lhsNonContracting := [0]
  rhsNonContracting := [0]
  lhsBatch := []
  rhsBatch := []
  wf := dot_S512x1280_S4x1280_S512x4_1_1_0_0_n_n_wf
def dot_S512x4_S1280x4_S512x1280_1_1_0_0_n_n : DotDims S512x4 S1280x4 S512x1280 where
  lhsContracting := [1]
  rhsContracting := [1]
  lhsNonContracting := [0]
  rhsNonContracting := [0]
  lhsBatch := []
  rhsBatch := []
  wf := dot_S512x4_S1280x4_S512x1280_1_1_0_0_n_n_wf

abbrev win0_0 : Pipeline.Window sig grid0 :=
  Pipeline.Window.ofSpec (Memref.whole main_arg0) S1x512x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1280x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x4x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x1280x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x512x1280.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x1280 : Shape := ⟨3, ![16, 4096, 1280]⟩
abbrev S16 : Shape := ⟨1, ![16]⟩
abbrev S1280x1280 : Shape := ⟨2, ![1280, 1280]⟩
abbrev S50x4x1280 : Shape := ⟨3, ![50, 4, 1280]⟩
abbrev S50x1280x4 : Shape := ⟨3, ![50, 1280, 4]⟩
abbrev S_ : Shape := ⟨0, ![]⟩
abbrev S16x1 : Shape := ⟨2, ![16, 1]⟩
abbrev S16x4x1280 : Shape := ⟨3, ![16, 4, 1280]⟩
abbrev S16x4096x4 : Shape := ⟨3, ![16, 4096, 4]⟩
abbrev S16x1280x4 : Shape := ⟨3, ![16, 1280, 4]⟩
abbrev S16x1x1 : Shape := ⟨3, ![16, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S16x4096x1280, .f32⟩
  | .hbm, ⟨1, _⟩ => ⟨S16, .i32⟩
  | .hbm, ⟨2, _⟩ => ⟨S1280x1280, .f32⟩
  | .hbm, ⟨3, _⟩ => ⟨S50x4x1280, .f32⟩
  | .hbm, ⟨4, _⟩ => ⟨S50x1280x4, .f32⟩
  | .hbm, ⟨5, _⟩ => ⟨S_, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i1⟩
  | .hbm, ⟨13, _⟩ => ⟨S16, .i32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S16, .i1⟩
  | .hbm, ⟨19, _⟩ => ⟨S_, .i32⟩
  | .hbm, ⟨20, _⟩ => ⟨S16, .i32⟩
  | .hbm, ⟨21, _⟩ => ⟨S16, .i32⟩
  | .hbm, ⟨22, _⟩ => ⟨S16, .i32⟩
  | .hbm, ⟨23, _⟩ => ⟨S_, .i32⟩
  | .hbm, ⟨24, _⟩ => ⟨S16, .i32⟩
  | .hbm, ⟨25, _⟩ => ⟨S16, .i1⟩
  | .hbm, ⟨26, _⟩ => ⟨S_, .i32⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S16x4096x1280, .f32⟩
  | .hbm, ⟨31, _⟩ => ⟨S_, .i32⟩
  | .hbm, ⟨32, _⟩ => ⟨S16, .i32⟩
  | .hbm, ⟨33, _⟩ => ⟨S16, .i1⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S16, .i32⟩
  | .hbm, ⟨38, _⟩ => ⟨S16x1, .i32⟩
  | .hbm, ⟨39, _⟩ => ⟨S16x4x1280, .f32⟩
  | .hbm, ⟨40, _⟩ => ⟨S16x4096x4, .f32⟩
  | .hbm, ⟨41, _⟩ => ⟨S_, .i32⟩
  | .hbm, ⟨42, _⟩ => ⟨S16, .i32⟩
  | .hbm, ⟨43, _⟩ => ⟨S16, .i1⟩
  | .hbm, ⟨44, _⟩ => ⟨S_, .i32⟩
  | .hbm, ⟨45, _⟩ => ⟨S16, .i32⟩
  | .hbm, ⟨46, _⟩ => ⟨S16, .i32⟩
  | .hbm, ⟨47, _⟩ => ⟨S16, .i32⟩
  | .hbm, ⟨48, _⟩ => ⟨S16x1, .i32⟩
  | .hbm, ⟨49, _⟩ => ⟨S16x1280x4, .f32⟩
  | .hbm, ⟨50, _⟩ => ⟨S16x4096x1280, .f32⟩
  | .hbm, ⟨51, _⟩ => ⟨S16x1x1, .i1⟩
  | .hbm, ⟨52, _⟩ => ⟨S_, .f32⟩
  | .hbm, ⟨53, _⟩ => ⟨S16x4096x1280, .f32⟩
  | .hbm, ⟨54, _⟩ => ⟨S16x4096x1280, .f32⟩
  | .hbm, ⟨55, _⟩ => ⟨S_, .f32⟩
  | .hbm, ⟨56, _⟩ => ⟨S16x4096x1280, .i1⟩
  | .hbm, ⟨57, _⟩ => ⟨S16x4096x1280, .f32⟩
  | .hbm, ⟨58, _⟩ => ⟨S16x4096x1280, .f32⟩
  | .hbm, ⟨59, _⟩ => ⟨S16x4096x1280, .f32⟩
  | _, _ => ⟨S16x4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v0 : Ref sig .tc := ⟨.hbm, 22, rfl⟩
abbrev main_c_0 : Ref sig .tc := ⟨.hbm, 23, rfl⟩
abbrev main_v1 : Ref sig .tc := ⟨.hbm, 24, rfl⟩
abbrev main_v2 : Ref sig .tc := ⟨.hbm, 25, rfl⟩
abbrev main_c_1 : Ref sig .tc := ⟨.hbm, 26, rfl⟩
abbrev main_call1_v0 : Ref sig .tc := ⟨.hbm, 27, rfl⟩
abbrev main_call1_v1 : Ref sig .tc := ⟨.hbm, 28, rfl⟩
abbrev main_v3 : Ref sig .tc := ⟨.hbm, 29, rfl⟩
abbrev main_v4 : Ref sig .tc := ⟨.hbm, 30, rfl⟩
abbrev main_c_2 : Ref sig .tc := ⟨.hbm, 31, rfl⟩
abbrev main_v5 : Ref sig .tc := ⟨.hbm, 32, rfl⟩
abbrev main_v6 : Ref sig .tc := ⟨.hbm, 33, rfl⟩
abbrev main_c_3 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_4 : Ref sig .tc := ⟨.hbm, 41, rfl⟩
abbrev main_v13 : Ref sig .tc := ⟨.hbm, 42, rfl⟩
abbrev main_v14 : Ref sig .tc := ⟨.hbm, 43, rfl⟩
abbrev main_c_5 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst : Ref sig .tc := ⟨.hbm, 52, rfl⟩
abbrev main_v22 : Ref sig .tc := ⟨.hbm, 53, rfl⟩
abbrev main_v23 : Ref sig .tc := ⟨.hbm, 54, rfl⟩
abbrev main_cst_6 : Ref sig .tc := ⟨.hbm, 55, rfl⟩
abbrev main_call2_v0 : Ref sig .tc := ⟨.hbm, 56, rfl⟩
abbrev main_call2_v1 : Ref sig .tc := ⟨.hbm, 57, rfl⟩
abbrev main_v24 : Ref sig .tc := ⟨.hbm, 58, rfl⟩
abbrev main_v25 : Ref sig .tc := ⟨.hbm, 59, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S16_S16x1x1_0 : S16.BroadcastsInDim S16x1x1 (![0] : Fin 1 → Fin S16x1x1.rank)
  bcast_S_S16x4096x1280 : S_.BroadcastsInDim S16x4096x1280 (![] : Fin 0 → Fin S16x4096x1280.rank)
  bcast_S16x1x1_S16x4096x1280_0_1_2 : S16x1x1.BroadcastsInDim S16x4096x1280 (![0, 1, 2] : Fin 3 → Fin S16x4096x1280.rank)
  dot_S16x4096x1280_S1280x1280_S16x4096x1280_2_1_01_0_n_n_wf : DotDims.WF S16x4096x1280 S1280x1280 S16x4096x1280 [2] [1] [0, 1] [0] [] []
  gather_S50x4x1280_S16x1_S16x4x1280_12_0_n_n_0_1_141280_wf : GatherDims.WF S50x4x1280 S16x1 S16x4x1280 [1, 2] [0] [] [0] [] 1 ![1, 4, 1280]
  dot_S16x4096x1280_S16x4x1280_S16x4096x4_2_2_1_1_0_0_wf : DotDims.WF S16x4096x1280 S16x4x1280 S16x4096x4 [2] [2] [1] [1] [0] [0]
  gather_S50x1280x4_S16x1_S16x1280x4_12_0_n_n_0_1_112804_wf : GatherDims.WF S50x1280x4 S16x1 S16x1280x4 [1, 2] [0] [] [0] [] 1 ![1, 1280, 4]
  dot_S16x4096x4_S16x1280x4_S16x4096x1280_2_2_1_1_0_0_wf : DotDims.WF S16x4096x4 S16x1280x4 S16x4096x1280 [2] [2] [1] [1] [0] [0]

variable [Facts₀]

def dot_S16x4096x1280_S1280x1280_S16x4096x1280_2_1_01_0_n_n : DotDims S16x4096x1280 S1280x1280 S16x4096x1280 where
  lhsContracting := [2]
  rhsContracting := [1]
  lhsNonContracting := [0, 1]
  rhsNonContracting := [0]
  lhsBatch := []
  rhsBatch := []
  wf := dot_S16x4096x1280_S1280x1280_S16x4096x1280_2_1_01_0_n_n_wf
def gather_S50x4x1280_S16x1_S16x4x1280_12_0_n_n_0_1_141280 : GatherDims S50x4x1280 S16x1 S16x4x1280 where
  offsetDims := [1, 2]
  collapsedSliceDims := [0]
  operandBatchingDims := []
  startIndicesBatchingDims := []
  startIndexMap := [0]
  indexVectorDim := 1
  sliceSizes := ![1, 4, 1280]
  wf := gather_S50x4x1280_S16x1_S16x4x1280_12_0_n_n_0_1_141280_wf
def dot_S16x4096x1280_S16x4x1280_S16x4096x4_2_2_1_1_0_0 : DotDims S16x4096x1280 S16x4x1280 S16x4096x4 where
  lhsContracting := [2]
  rhsContracting := [2]
  lhsNonContracting := [1]
  rhsNonContracting := [1]
  lhsBatch := [0]
  rhsBatch := [0]
  wf := dot_S16x4096x1280_S16x4x1280_S16x4096x4_2_2_1_1_0_0_wf
def gather_S50x1280x4_S16x1_S16x1280x4_12_0_n_n_0_1_112804 : GatherDims S50x1280x4 S16x1 S16x1280x4 where
  offsetDims := [1, 2]
  collapsedSliceDims := [0]
  operandBatchingDims := []
  startIndicesBatchingDims := []
  startIndexMap := [0]
  indexVectorDim := 1
  sliceSizes := ![1, 1280, 4]
  wf := gather_S50x1280x4_S16x1_S16x1280x4_12_0_n_n_0_1_112804_wf
def dot_S16x4096x4_S16x1280x4_S16x4096x1280_2_2_1_1_0_0 : DotDims S16x4096x4 S16x1280x4 S16x4096x1280 where
  lhsContracting := [2]
  rhsContracting := [2]
  lhsNonContracting := [1]
  rhsNonContracting := [1]
  lhsBatch := [0]
  rhsBatch := [0]
  wf := dot_S16x4096x4_S16x1280x4_S16x4096x1280_2_2_1_1_0_0_wf

class Facts : Prop extends Facts₀ where

variable [Facts]
-- ==== Proof.LibRowDots.lean ====
/-
  Products of rows against rows, read at an index, on the extended reals.

  A contraction whose two operands are both contracted on their LAST axis — [M,K] against [N,K] (a `tpu.matmul`
  into the zero accumulator, or the host's `dot_general`), [B,M,K] against a shared [N,K], and the batched
  [B,M,K] against [B,N,K] — is, at the output index (p, f) or (g, p, f), the sum over d of the left row's entry d
  times the right row's entry d. Each statement holds for any dimension record equal to the literal one.
-/
import Idealize.ShloMosaic.PureOps.Ideal.Laws
import Idealize.ShloMosaic.Lib.ValueIdx

noncomputable section

namespace Cert.LibRowDots

open Idealize.ShloMosaic Idealize.ShloMosaic.ValueIdx

/-! ## [M,K] against [N,K] -/

section Rows

variable {M K N : Nat}
variable (wf : DotDims.WF ⟨2, ![M, K]⟩ ⟨2, ![N, K]⟩ ⟨2, ![M, N]⟩ [1] [1] [0] [0] [] [])

/-- The literal record: both operands contracted on axis 1, no batch axis. -/
abbrev rows : DotDims ⟨2, ![M, K]⟩ ⟨2, ![N, K]⟩ ⟨2, ![M, N]⟩ := ⟨[1], [1], [0], [0], [], [], wf⟩

theorem rows_lhs0 (i : (⟨2, ![M, N]⟩ : Shape).Idx) (q : (rows wf).contr.Idx) : ((rows wf).lhsIdx i q 0).val = (i 0).val := by
  unfold DotDims.lhsIdx
  rw [dif_neg (show ¬(0 : Fin 2) ∈ (rows wf).lhsBatch from (by decide : ¬(0 : Fin 2) ∈ ([] : List (Fin 2)))), dif_pos (show (0 : Fin 2) ∈ (rows wf).lhsNonContracting from (by decide : (0 : Fin 2) ∈ ([0] : List (Fin 2))))]
  rfl

theorem rows_lhs1 (i : (⟨2, ![M, N]⟩ : Shape).Idx) (q : (rows wf).contr.Idx) : ((rows wf).lhsIdx i q 1).val = (q ⟨0, Nat.one_pos⟩).val :=
  (rows wf).lhsIdx_val_of_single rfl i q

theorem rows_rhs0 (i : (⟨2, ![M, N]⟩ : Shape).Idx) (q : (rows wf).contr.Idx) : ((rows wf).rhsIdx i q 0).val = (i 1).val := by
  unfold DotDims.rhsIdx
  rw [dif_neg (show ¬(0 : Fin 2) ∈ (rows wf).rhsBatch from (by decide : ¬(0 : Fin 2) ∈ ([] : List (Fin 2)))), dif_pos (show (0 : Fin 2) ∈ (rows wf).rhsNonContracting from (by decide : (0 : Fin 2) ∈ ([0] : List (Fin 2))))]
  rfl

theorem rows_rhs1 (i : (⟨2, ![M, N]⟩ : Shape).Idx) (q : (rows wf).contr.Idx) : ((rows wf).rhsIdx i q 1).val = (q ⟨0, Nat.one_pos⟩).val :=
  (rows wf).rhsIdx_val_of_single rfl i q

/-- The sum over the contraction index is the sum over d of row p of the left times row f of the right. -/
theorem rows_sum {φ₁ φ₂ : FTy} (a : FVec Ideal ⟨2, ![M, K]⟩ φ₁) (w : FVec Ideal ⟨2, ![N, K]⟩ φ₂) (p : Fin M) (f : Fin N) :
    ∑ k : (rows wf).contr.Idx, a ((rows wf).lhsIdx (ix2 p f) k) * w ((rows wf).rhsIdx (ix2 p f) k)
      = ∑ d : Fin K, a (ix2 p d) * w (ix2 f d) := by
  rw [← Equiv.sum_comp (contrEquiv1 (rows wf) K rfl rfl).symm]
  refine Finset.sum_congr rfl fun k _ => ?_
  have hk := contrEquiv1_symm_val (rows wf) K rfl rfl k
  have el : (rows wf).lhsIdx (ix2 p f) ((contrEquiv1 (rows wf) K rfl rfl).symm k) = ix2 p k := funext fun x => Fin.ext (by
    match x with
    | ⟨0, _⟩ => exact rows_lhs0 wf _ _
    | ⟨1, _⟩ => exact (rows_lhs1 wf _ _).trans hk)
  have er : (rows wf).rhsIdx (ix2 p f) ((contrEquiv1 (rows wf) K rfl rfl).symm k) = ix2 f k := funext fun x => Fin.ext (by
    match x with
    | ⟨0, _⟩ => exact rows_rhs0 wf _ _
    | ⟨1, _⟩ => exact (rows_rhs1 wf _ _).trans hk)
  rw [el, er]

/-- A `tpu.matmul` of rows against rows into the zero accumulator, at (p, f). -/
theorem matmul_rows {φ₁ φ₂ : FTy} (D : DotDims ⟨2, ![M, K]⟩ ⟨2, ![N, K]⟩ ⟨2, ![M, N]⟩) (hD : D = rows wf)
    (prec : Option ContractPrecision) (a : FVec Ideal ⟨2, ![M, K]⟩ φ₁) (w : FVec Ideal ⟨2, ![N, K]⟩ φ₂) (p : Fin M) (f : Fin N) :
    matmul D prec a w (constant (F := Ideal) ⟨2, ![M, N]⟩ .f32 0x00000000#32) (ix2 p f) = ∑ d : Fin K, a (ix2 p d) * w (ix2 f d) := by
  subst hD
  exact (Ideal.matmul_constant_zero_apply _ prec a w (ix2 p f)).trans (rows_sum wf a w p f)

end Rows

/-! ## [B,M,K] against a shared [N,K] -/

section Shared

variable {B M K N : Nat}
variable (wf : DotDims.WF ⟨3, ![B, M, K]⟩ ⟨2, ![N, K]⟩ ⟨3, ![B, M, N]⟩ [2] [1] [0, 1] [0] [] [])

/-- The literal record: the left contracted on axis 2, the right on axis 1, no batch axis. -/
abbrev shared : DotDims ⟨3, ![B, M, K]⟩ ⟨2, ![N, K]⟩ ⟨3, ![B, M, N]⟩ := ⟨[2], [1], [0, 1], [0], [], [], wf⟩

theorem shared_lhs0 (i : (⟨3, ![B, M, N]⟩ : Shape).Idx) (q : (shared wf).contr.Idx) : ((shared wf).lhsIdx i q 0).val = (i 0).val := by
  unfold DotDims.lhsIdx
  rw [dif_neg (show ¬(0 : Fin 3) ∈ (shared wf).lhsBatch from (by decide : ¬(0 : Fin 3) ∈ ([] : List (Fin 3)))), dif_pos (show (0 : Fin 3) ∈ (shared wf).lhsNonContracting from (by decide : (0 : Fin 3) ∈ ([0, 1] : List (Fin 3))))]
  rfl

theorem shared_lhs1 (i : (⟨3, ![B, M, N]⟩ : Shape).Idx) (q : (shared wf).contr.Idx) : ((shared wf).lhsIdx i q 1).val = (i 1).val := by
  unfold DotDims.lhsIdx
  rw [dif_neg (show ¬(1 : Fin 3) ∈ (shared wf).lhsBatch from (by decide : ¬(1 : Fin 3) ∈ ([] : List (Fin 3)))), dif_pos (show (1 : Fin 3) ∈ (shared wf).lhsNonContracting from (by decide : (1 : Fin 3) ∈ ([0, 1] : List (Fin 3))))]
  rfl

theorem shared_lhs2 (i : (⟨3, ![B, M, N]⟩ : Shape).Idx) (q : (shared wf).contr.Idx) : ((shared wf).lhsIdx i q 2).val = (q ⟨0, Nat.one_pos⟩).val :=
  (shared wf).lhsIdx_val_of_single rfl i q

theorem shared_rhs0 (i : (⟨3, ![B, M, N]⟩ : Shape).Idx) (q : (shared wf).contr.Idx) : ((shared wf).rhsIdx i q 0).val = (i 2).val := by
  unfold DotDims.rhsIdx
  rw [dif_neg (show ¬(0 : Fin 2) ∈ (shared wf).rhsBatch from (by decide : ¬(0 : Fin 2) ∈ ([] : List (Fin 2)))), dif_pos (show (0 : Fin 2) ∈ (shared wf).rhsNonContracting from (by decide : (0 : Fin 2) ∈ ([0] : List (Fin 2))))]
  rfl

theorem shared_rhs1 (i : (⟨3, ![B, M, N]⟩ : Shape).Idx) (q : (shared wf).contr.Idx) : ((shared wf).rhsIdx i q 1).val = (q ⟨0, Nat.one_pos⟩).val :=
  (shared wf).rhsIdx_val_of_single rfl i q

/-- The host's `dot_general` of every chunk's rows against one shared table's rows, at (g, p, f). -/
theorem dot_shared {φ₁ φ₂ : FTy} (D : DotDims ⟨3, ![B, M, K]⟩ ⟨2, ![N, K]⟩ ⟨3, ![B, M, N]⟩) (hD : D = shared wf)
    (prec : Option ContractPrecision) (a : FVec Ideal ⟨3, ![B, M, K]⟩ φ₁) (w : FVec Ideal ⟨2, ![N, K]⟩ φ₂) (g : Fin B) (p : Fin M) (f : Fin N) :
    Host.dotGeneral D prec a w (ix3 g p f) = ∑ d : Fin K, a (ix3 g p d) * w (ix2 f d) := by
  subst hD
  refine (Ideal.dotGeneral_apply _ prec .single a w (ix3 g p f)).trans ?_
  rw [← Equiv.sum_comp (contrEquiv1 (shared wf) K rfl rfl).symm]
  refine Finset.sum_congr rfl fun k _ => ?_
  have hk := contrEquiv1_symm_val (shared wf) K rfl rfl k
  have el : (shared wf).lhsIdx (ix3 g p f) ((contrEquiv1 (shared wf) K rfl rfl).symm k) = ix3 g p k := funext fun x => Fin.ext (by
    match x with
    | ⟨0, _⟩ => exact shared_lhs0 wf _ _
    | ⟨1, _⟩ => exact shared_lhs1 wf _ _
    | ⟨2, _⟩ => exact (shared_lhs2 wf _ _).trans hk)
  have er : (shared wf).rhsIdx (ix3 g p f) ((contrEquiv1 (shared wf) K rfl rfl).symm k) = ix2 f k := funext fun x => Fin.ext (by
    match x with
    | ⟨0, _⟩ => exact shared_rhs0 wf _ _
    | ⟨1, _⟩ => exact (shared_rhs1 wf _ _).trans hk)
  rw [el, er]

end Shared

/-! ## [B,M,K] against [B,N,K], chunk by chunk -/

section Batched

variable {B M K N : Nat}
variable (wf : DotDims.WF ⟨3, ![B, M, K]⟩ ⟨3, ![B, N, K]⟩ ⟨3, ![B, M, N]⟩ [2] [2] [1] [1] [0] [0])

/-- The literal record: axis 0 the batch axis of both, both contracted on axis 2. -/
abbrev batched : DotDims ⟨3, ![B, M, K]⟩ ⟨3, ![B, N, K]⟩ ⟨3, ![B, M, N]⟩ := ⟨[2], [2], [1], [1], [0], [0], wf⟩

theorem batched_lhs0 (i : (⟨3, ![B, M, N]⟩ : Shape).Idx) (q : (batched wf).contr.Idx) : ((batched wf).lhsIdx i q 0).val = (i 0).val := by
  unfold DotDims.lhsIdx
  rw [dif_pos (show (0 : Fin 3) ∈ (batched wf).lhsBatch from (by decide : (0 : Fin 3) ∈ ([0] : List (Fin 3))))]
  rfl

theorem batched_lhs1 (i : (⟨3, ![B, M, N]⟩ : Shape).Idx) (q : (batched wf).contr.Idx) : ((batched wf).lhsIdx i q 1).val = (i 1).val := by
  unfold DotDims.lhsIdx
  rw [dif_neg (show ¬(1 : Fin 3) ∈ (batched wf).lhsBatch from (by decide : ¬(1 : Fin 3) ∈ ([0] : List (Fin 3)))), dif_pos (show (1 : Fin 3) ∈ (batched wf).lhsNonContracting from (by decide : (1 : Fin 3) ∈ ([1] : List (Fin 3))))]
  rfl

theorem batched_lhs2 (i : (⟨3, ![B, M, N]⟩ : Shape).Idx) (q : (batched wf).contr.Idx) : ((batched wf).lhsIdx i q 2).val = (q ⟨0, Nat.one_pos⟩).val :=
  (batched wf).lhsIdx_val_of_single rfl i q

theorem batched_rhs0 (i : (⟨3, ![B, M, N]⟩ : Shape).Idx) (q : (batched wf).contr.Idx) : ((batched wf).rhsIdx i q 0).val = (i 0).val := by
  unfold DotDims.rhsIdx
  rw [dif_pos (show (0 : Fin 3) ∈ (batched wf).rhsBatch from (by decide : (0 : Fin 3) ∈ ([0] : List (Fin 3))))]
  rfl

theorem batched_rhs1 (i : (⟨3, ![B, M, N]⟩ : Shape).Idx) (q : (batched wf).contr.Idx) : ((batched wf).rhsIdx i q 1).val = (i 2).val := by
  unfold DotDims.rhsIdx
  rw [dif_neg (show ¬(1 : Fin 3) ∈ (batched wf).rhsBatch from (by decide : ¬(1 : Fin 3) ∈ ([0] : List (Fin 3)))), dif_pos (show (1 : Fin 3) ∈ (batched wf).rhsNonContracting from (by decide : (1 : Fin 3) ∈ ([1] : List (Fin 3))))]
  rfl

theorem batched_rhs2 (i : (⟨3, ![B, M, N]⟩ : Shape).Idx) (q : (batched wf).contr.Idx) : ((batched wf).rhsIdx i q 2).val = (q ⟨0, Nat.one_pos⟩).val :=
  (batched wf).rhsIdx_val_of_single rfl i q

/-- The host's batched `dot_general`: chunk g's rows against chunk g's table's rows, at (g, p, f). -/
theorem dot_batched {φ₁ φ₂ : FTy} (D : DotDims ⟨3, ![B, M, K]⟩ ⟨3, ![B, N, K]⟩ ⟨3, ![B, M, N]⟩) (hD : D = batched wf)
    (prec : Option ContractPrecision) (a : FVec Ideal ⟨3, ![B, M, K]⟩ φ₁) (w : FVec Ideal ⟨3, ![B, N, K]⟩ φ₂) (g : Fin B) (p : Fin M) (f : Fin N) :
    Host.dotGeneral D prec a w (ix3 g p f) = ∑ d : Fin K, a (ix3 g p d) * w (ix3 g f d) := by
  subst hD
  refine (Ideal.dotGeneral_apply _ prec .single a w (ix3 g p f)).trans ?_
  rw [← Equiv.sum_comp (contrEquiv1 (batched wf) K rfl rfl).symm]
  refine Finset.sum_congr rfl fun k _ => ?_
  have hk := contrEquiv1_symm_val (batched wf) K rfl rfl k
  have el : (batched wf).lhsIdx (ix3 g p f) ((contrEquiv1 (batched wf) K rfl rfl).symm k) = ix3 g p k := funext fun x => Fin.ext (by
    match x with
    | ⟨0, _⟩ => exact batched_lhs0 wf _ _
    | ⟨1, _⟩ => exact batched_lhs1 wf _ _
    | ⟨2, _⟩ => exact (batched_lhs2 wf _ _).trans hk)
  have er : (batched wf).rhsIdx (ix3 g p f) ((contrEquiv1 (batched wf) K rfl rfl).symm k) = ix3 g f k := funext fun x => Fin.ext (by
    match x with
    | ⟨0, _⟩ => exact batched_rhs0 wf _ _
    | ⟨1, _⟩ => exact batched_rhs1 wf _ _
    | ⟨2, _⟩ => exact (batched_rhs2 wf _ _).trans hk)
  rw [el, er]

end Batched

end Cert.LibRowDots

end
-- ==== Proof.KernelPayload.lean ====
/-
  What the kernel body stores, entry by entry, on the extended reals: from the token block x0 [1,512,1280], the base
  weight x1 [1280,1280] and the chunk's two adapter tables x2 [1,4,1280], x3 [1,1280,4], the stored block at (0, r, o)
  is  Σ_d x0(0,r,d)·x1(o,d) + Σ_k (Σ_d x0(0,r,d)·x2(0,k,d)) · x3(0,o,k):
  three products of rows against rows, the roundings to bf16 on the way the identity here.
-/
import proofs.«159263_j75746043232770_2_alg».proof.Proof.Gen.KernelIdeal.Skeleton
import proofs.«159263_j75746043232770_2_alg».proof.Proof.LibRowDots
import Idealize.ShloMosaic.Lib.Pipeline.Value
import Idealize.ShloMosaic.Lib.ValueLayout

noncomputable section

namespace Cert.KernelIdeal.Payload

open Cert.KernelIdeal Cert.KernelIdeal.Gen Idealize.ShloMosaic Idealize.ShloMosaic.ValueIdx Cert.LibRowDots

theorem stored_apply (x0 : Vec Ideal S1x512x1280 .f32) (x1 : Vec Ideal S1280x1280 .bf16) (x2 : Vec Ideal S1x4x1280 .bf16)
    (x3 : Vec Ideal S1x1280x4 .bf16) (r : Fin 512) (o : Fin 1280) :
    k0_pay1 (F := Ideal) x0 x1 x2 x3 (ix3 (0 : Fin 1) r o)
      = (∑ d : Fin 1280, x0 (ix3 (0 : Fin 1) r d) * x1 (ix2 o d))
        + ∑ k : Fin 4, (∑ d : Fin 1280, x0 (ix3 (0 : Fin 1) r d) * x2 (ix3 (0 : Fin 1) k d)) * x3 (ix3 (0 : Fin 1) o k) := by
  unfold k0_pay1
  refine (shapeCast_ab_1ab_apply _ _ (0 : Fin 1) r o).trans ?_
  refine congrArg₂ (· + ·) ?_ ?_
  · refine (matmul_rows dot_S512x1280_S1280x1280_S512x1280_1_1_0_0_n_n_wf _ rfl none _ _ r o).trans
      (Finset.sum_congr rfl fun d _ => ?_)
    exact congrArg₂ (· * ·) (shapeCast_1ab_ab_apply x0 _ r d) (congrFun (shapeCast_self x1 _) (ix2 o d))
  · refine (matmul_rows dot_S512x4_S1280x4_S512x1280_1_1_0_0_n_n_wf _ rfl none _ _ r o).trans
      (Finset.sum_congr rfl fun k _ => ?_)
    refine congrArg₂ (· * ·) ?_ (shapeCast_1ab_ab_apply x3 _ o k)
    refine (matmul_rows dot_S512x1280_S4x1280_S512x4_1_1_0_0_n_n_wf _ rfl none _ _ r k).trans
      (Finset.sum_congr rfl fun d _ => ?_)
    exact congrArg₂ (· * ·) (shapeCast_1ab_ab_apply x0 _ r d) (shapeCast_1ab_ab_apply x2 _ k d)

end Cert.KernelIdeal.Payload

end
-- ==== Proof.HostChain.lean ====
/-
  The integer side of the adapter lookup, shared by the kernel's wrapper and the reference: from the per-chunk
  adapter ids, which chunks are active (id ≥ 0), and the row of the adapter tables each chunk reads
  (floor (id / 4) for an active chunk, row 0 for an inactive one, a negative row counted from the end of the 50 rows).
  Both programs compute these by the same operations; nothing here is ever evaluated, the two sides are only
  compared.
-/
import Idealize.ShloMosaic.PureOps

noncomputable section

namespace Cert.Lora

open Idealize.ShloMosaic

abbrev Sc : Shape := ⟨0, ![]⟩
abbrev Ids : Shape := ⟨1, ![16]⟩
abbrev IdCol : Shape := ⟨2, ![16, 1]⟩

variable (h0 : Sc.BroadcastsInDim Ids (![] : Fin 0 → Fin Ids.rank))

/-- A chunk is active when its adapter id is not negative. -/
def active (ids : IVec Ids 32) : IVec Ids 1 :=
  cmpi .sge ids (broadcastInDim Ids ![] h0 (constantI Sc 32 0#32))

/-- floor (id / 4): the truncating quotient, lowered by one where the signs differ and the remainder is not zero. -/
def quot4 (ids : IVec Ids 32) : IVec Ids 32 :=
  select
    (andi (cmpi .ne (signi ids) (broadcastInDim Ids ![] h0 (signi (constantI Sc 32 4#32))))
      (cmpi .ne (Host.remsi ids (broadcastInDim Ids ![] h0 (constantI Sc 32 4#32))) (broadcastInDim Ids ![] h0 (constantI Sc 32 0#32))))
    (subi (Host.divsi ids (broadcastInDim Ids ![] h0 (constantI Sc 32 4#32))) (broadcastInDim Ids ![] h0 (constantI Sc 32 1#32)))
    (Host.divsi ids (broadcastInDim Ids ![] h0 (constantI Sc 32 4#32)))

/-- The row an active chunk reads, row 0 for an inactive one. -/
def safeRow (ids : IVec Ids 32) : IVec Ids 32 :=
  select (active h0 ids) (quot4 h0 ids) (broadcastInDim Ids ![] h0 (constantI Sc 32 0#32))

/-- A negative row counts from the end of the 50 rows. -/
def wrapRow (ids : IVec Ids 32) : IVec Ids 32 :=
  select (cmpi .slt (safeRow h0 ids) (broadcastInDim Ids ![] h0 (constantI Sc 32 0#32)))
    (addi (safeRow h0 ids) (broadcastInDim Ids ![] h0 (constantI Sc 32 50#32))) (safeRow h0 ids)

/-- The rows as a column of one-entry index vectors, as the gather takes them. -/
def rowIdx (h1 : Ids.BroadcastsInDim IdCol (![0] : Fin 1 → Fin IdCol.rank)) (ids : IVec Ids 32) : IVec IdCol 32 :=
  broadcastInDim IdCol ![0] h1 (wrapRow h0 ids)

end Cert.Lora

end
-- ==== Proof.LoraSpec.lean ====
/-
  The layer both programs compute, entry by entry, on the extended reals.

  For chunk g, token t and output feature o:
      out(g,t,o) = Σ_d x(g,t,d)·W(o,d) + Σ_k (Σ_d x(g,t,d)·A(g,k,d)) · B(g,o,k)
  where A and B are chunk g's rows of the down and up adapter tables. The kernel receives A and B already multiplied
  by the chunk's 0/1 activity c (B also by the scale 1); the reference multiplies the finished adapter term by the
  scale 1 and keeps it where the chunk is active, putting 0 elsewhere. The two agree for c = 1 because 1 is neutral for
  the product, and for c = 0 because 0 annihilates it: a zero down table makes every inner sum 0, and 0 times anything is 0
  on the extended reals. No entry needs to be finite for this.
-/
import Idealize.ShloMosaic.PureOps.Ideal
import Idealize.ShloMosaic.Lib.ValueIdx

noncomputable section

namespace Cert.Lora

open Idealize.ShloMosaic Idealize.ShloMosaic.ValueIdx

abbrev Xs : Shape := ⟨3, ![16, 4096, 1280]⟩
abbrev Ws : Shape := ⟨2, ![1280, 1280]⟩
abbrev Ds : Shape := ⟨3, ![16, 4, 1280]⟩
abbrev Us : Shape := ⟨3, ![16, 1280, 4]⟩

/-- The base product of token (g, t) with row o of the weight. -/
def base (x : Xs.Idx → EReal) (w : Ws.Idx → EReal) (g : Fin 16) (t : Fin 4096) (o : Fin 1280) : EReal :=
  ∑ d : Fin 1280, x (ix3 g t d) * w (ix2 o d)

/-- The adapter's term: the token projected down onto 4 coordinates, then up to feature o. -/
def adapter (x : Xs.Idx → EReal) (a : Ds.Idx → EReal) (b : Us.Idx → EReal) (g : Fin 16) (t : Fin 4096) (o : Fin 1280) : EReal :=
  ∑ k : Fin 4, (∑ d : Fin 1280, x (ix3 g t d) * a (ix3 g k d)) * b (ix3 g o k)

/-- One entry of the layer's output over the tables as given. -/
def cell (x : Xs.Idx → EReal) (w : Ws.Idx → EReal) (a : Ds.Idx → EReal) (b : Us.Idx → EReal) (g : Fin 16) (t : Fin 4096) (o : Fin 1280) : EReal :=
  base x w g t o + adapter x a b g t o

/-- The whole output array. -/
def out (x : Xs.Idx → EReal) (w : Ws.Idx → EReal) (a : Ds.Idx → EReal) (b : Us.Idx → EReal) : Xs.Idx → EReal :=
  fun i => cell x w a b (i 0) (i 1) (i 2)

/-- A 0/1 word as an extended real is 0 or 1. -/
theorem bit_cases (c : BitVec 1) : (c = 0#1 ∧ (((c.toNat : ℝ) : EReal)) = 0) ∨ (c = 1#1 ∧ (((c.toNat : ℝ) : EReal)) = 1) := by
  rcases BitVec.eq_zero_or_eq_one c with h | h <;> subst h
  · left; exact ⟨rfl, by simp⟩
  · right; exact ⟨rfl, by simp⟩

/-- Tables multiplied by the chunk's activity beforehand give the adapter's term where the chunk is active and 0 where
    it is not: the reference's select. `u` is the scale, equal to 1. -/
theorem adapter_masked (x : Xs.Idx → EReal) (A a : Ds.Idx → EReal) (B b : Us.Idx → EReal) (u : EReal) (hu : u = 1)
    (g : Fin 16) (t : Fin 4096) (o : Fin 1280) (c : BitVec 1)
    (ha : ∀ k d, a (ix3 g k d) = A (ix3 g k d) * ((c.toNat : ℝ) : EReal))
    (hb : ∀ k, b (ix3 g o k) = (B (ix3 g o k) * u) * ((c.toNat : ℝ) : EReal)) :
    adapter x a b g t o = Scalar.select c (adapter x A B g t o * u) 0 := by
  subst hu
  unfold adapter
  rcases bit_cases c with ⟨hc, hv⟩ | ⟨hc, hv⟩
  · subst hc
    rw [ValueIdx.select_zero]
    refine Finset.sum_eq_zero fun k _ => ?_
    rw [hb k, hv, mul_zero, mul_zero]
  · subst hc
    rw [ValueIdx.select_one, mul_one]
    refine Finset.sum_congr rfl fun k _ => ?_
    rw [hb k, hv, mul_one, mul_one]
    refine congrArg (· * B (ix3 g o k)) (Finset.sum_congr rfl fun d _ => ?_)
    rw [ha k d, hv, mul_one]

end Cert.Lora

end
-- ==== Proof.KernelHost.lean ====
/-
  What the kernel's wrapper hands the pallas_call: the base weight as it is, and the two adapter tables gathered at each
  chunk's row and multiplied by the chunk's 0/1 activity (the up table also by the scale 1). Each is a term of the
  argument arrays: the host operations before the region, read back.
-/
import proofs.«159263_j75746043232770_2_alg».proof.Proof.Gen.KernelIdeal.Frame
import proofs.«159263_j75746043232770_2_alg».proof.Proof.HostChain
import proofs.«159263_j75746043232770_2_alg».proof.Proof.LoraSpec
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-- The 0/1 activity of each chunk as a float. -/
def activity (ids : IVec S16 32) : FVec F S16x1x1 .f32 :=
  broadcastInDim S16x1x1 ![0] bcast_S16_S16x1x1_0 (uitofp .f32 (Cert.Lora.active bcast_S_S16 ids))

/-- The down table's rows of each chunk, times the chunk's activity. -/
def downRows (ids : IVec S16 32) (wd : FVec F S50x4x1280 .f32) : FVec F S16x4x1280 .bf16 :=
  truncf .bf16 (mulf (Host.gather gather_S50x4x1280_S16x1_S16x4x1280_12_0_n_n_0_1_141280 wd (Cert.Lora.rowIdx bcast_S_S16 bcast_S16_S16x1_0 ids))
    (broadcastInDim S16x4x1280 ![0, 1, 2] bcast_S16x1x1_S16x4x1280_0_1_2 (activity ids))) bitsLt_bf16_f32

/-- The up table's rows of each chunk, times the scale 1, times the chunk's activity. -/
def upRows (ids : IVec S16 32) (wu : FVec F S50x1280x4 .f32) : FVec F S16x1280x4 .bf16 :=
  truncf .bf16 (mulf (mulf (Host.gather gather_S50x1280x4_S16x1_S16x1280x4_12_0_n_n_0_1_112804 wu (Cert.Lora.rowIdx bcast_S_S16 bcast_S16_S16x1_0 ids))
      (broadcastInDim S16x1280x4 ![] bcast_S_S16x1280x4 (constant S_ .f32 0x3F800000#32)))
    (broadcastInDim S16x1280x4 ![0, 1, 2] bcast_S16x1x1_S16x1280x4_0_1_2 (activity ids))) bitsLt_bf16_f32

/-- The layer's output as the kernel's program computes it, a term of the argument arrays: the layer over the base
    weight and the two prepared tables. -/
def layer (x : FVec Ideal S16x4096x1280 .f32) (ids : IVec S16 32) (w : FVec Ideal S1280x1280 .f32) (wd : FVec Ideal S50x4x1280 .f32)
    (wu : FVec Ideal S50x1280x4 .f32) : S16x4096x1280.Idx → EReal :=
  Cert.Lora.out x (truncf .bf16 w bitsLt_bf16_f32 : FVec Ideal S1280x1280 .bf16) (downRows ids wd) (upRows ids wu)

variable (m : (ℓ : Loc nD τ sig) → Buf (Elt F) ℓ)

theorem base_eq (c : Dev nD) :
    (V m c main_v26 : FVec F S1280x1280 .bf16) = truncf .bf16 (m ((c : Thread nD τ).loc main_arg2) : FVec F S1280x1280 .f32) bitsLt_bf16_f32 := by
  dsimp only [V]
  simp only [hostOps0, hostOps0_1, hostOps0_2, hostOps0_3, hostOps0_4, List.flatten_cons, List.flatten_nil, List.append_nil, List.cons_append,
    List.nil_append]
  after_results

theorem down_eq (c : Dev nD) :
    (V m c main_v27 : FVec F S16x4x1280 .bf16)
      = downRows (m ((c : Thread nD τ).loc main_arg1) : IVec S16 32) (m ((c : Thread nD τ).loc main_arg3) : FVec F S50x4x1280 .f32) := by
  dsimp only [V]
  simp only [hostOps0, hostOps0_1, hostOps0_2, hostOps0_3, hostOps0_4, List.flatten_cons, List.flatten_nil, List.append_nil, List.cons_append,
    List.nil_append]
  after_results_simp <;> rfl

theorem up_eq (c : Dev nD) :
    (V m c main_v28 : FVec F S16x1280x4 .bf16)
      = upRows (m ((c : Thread nD τ).loc main_arg1) : IVec S16 32) (m ((c : Thread nD τ).loc main_arg4) : FVec F S50x1280x4 .f32) := by
  dsimp only [V]
  simp only [hostOps0, hostOps0_1, hostOps0_2, hostOps0_3, hostOps0_4, List.flatten_cons, List.flatten_nil, List.append_nil, List.cons_append,
    List.nil_append]
  after_results_simp <;> rfl

end Cert.KernelIdeal.HostSide

end
-- ==== Proof.KernelBlocks.lean ====
/-
  From blocks to the array. Grid point t = (g, s) of the 16 × 8 grid works on chunk g and token rows 512·s … 512·s + 511:
  it reads those rows of x, the whole base weight, chunk g's two adapter tables, and writes back those rows of the
  output. So what each point writes is the restriction of ONE array — the layer's output over the arrays as the region
  finds them — and the 128 blocks tile the output, which therefore ends holding that array.
-/
import proofs.«159263_j75746043232770_2_alg».proof.Proof.Gen.KernelIdeal.Value
import proofs.«159263_j75746043232770_2_alg».proof.Proof.KernelPayload
import proofs.«159263_j75746043232770_2_alg».proof.Proof.KernelHost
import proofs.«159263_j75746043232770_2_alg».proof.Proof.LoraSpec
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided once over the grid: the output's block index is (chunk, row block, 0); the token
    window moves with it; the weight's block is the whole array; each adapter table's block is the chunk's. -/
theorem idx_facts : ∀ t : Fin cfg0.N,
    win0_4.index t (0 : Fin 3) < 16 ∧ win0_4.index t (1 : Fin 3) < 8 ∧ win0_4.index t (2 : Fin 3) = 0
    ∧ win0_0.index t (0 : Fin 3) = win0_4.index t (0 : Fin 3) ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0 :=
  (by decide +kernel : ∀ t : Fin grid0.N, _)

/-- Every (chunk, row block) is some point's. -/
theorem idx_onto : ∀ (q0 : Fin 16) (q1 : Fin 8), ∃ t : Fin cfg0.N, win0_4.index t = ![q0.val, q1.val, 0] :=
  (by decide +kernel : ∀ (q0 : Fin 16) (q1 : Fin 8), ∃ t : Fin grid0.N, win0_4.index t = ![q0.val, q1.val, 0])

/-- The chunk point t works on. -/
def chunkOf (t : Fin cfg0.N) : Fin 16 := ⟨win0_4.index t (0 : Fin 3), (idx_facts t).1⟩

/-- The token row of the array that row r of point t's block is. -/
def rowOf (t : Fin cfg0.N) (r : Fin 512) : Fin 4096 :=
  ⟨win0_4.index t (1 : Fin 3) * 512 + r.val, by have := (idx_facts t).2.1; have := r.isLt; omega⟩

/-! ## Where each block's entries sit in its array -/

theorem out_emb (t : Fin cfg0.N) (r : Fin 512) (o : Fin 1280) :
    ((cfg0.win 4).blk t).view.emb (ix3 (0 : Fin 1) r o) = (ix3 (chunkOf t) (rowOf t r) o : S16x4096x1280.Idx) := by
  obtain ⟨-, -, e2, -⟩ := idx_facts t
  funext a; apply Fin.ext
  match a with
  | ⟨0, _⟩ => show win0_4.index t (0 : Fin 3) * 1 + 1 * 0 = win0_4.index t (0 : Fin 3); omega
  | ⟨1, _⟩ => show win0_4.index t (1 : Fin 3) * 512 + 1 * r.val = win0_4.index t (1 : Fin 3) * 512 + r.val; omega
  | ⟨2, _⟩ => show win0_4.index t (2 : Fin 3) * 1280 + 1 * o.val = o.val; omega

theorem x_emb (t : Fin cfg0.N) (r : Fin 512) (d : Fin 1280) :
    ((cfg0.win 0).blk t).view.emb (ix3 (0 : Fin 1) r d) = (ix3 (chunkOf t) (rowOf t r) d : S16x4096x1280.Idx) := by
  obtain ⟨-, -, -, e0, e1, e2, -⟩ := idx_facts t
  funext a; apply Fin.ext
  match a with
  | ⟨0, _⟩ => show win0_0.index t (0 : Fin 3) * 1 + 1 * 0 = win0_4.index t (0 : Fin 3); omega
  | ⟨1, _⟩ => show win0_0.index t (1 : Fin 3) * 512 + 1 * r.val = win0_4.index t (1 : Fin 3) * 512 + r.val; omega
  | ⟨2, _⟩ => show win0_0.index t (2 : Fin 3) * 1280 + 1 * d.val = d.val; omega

theorem w_emb (t : Fin cfg0.N) (o d : Fin 1280) :
    ((cfg0.win 1).blk t).view.emb (ix2 o d) = (ix2 o d : S1280x1280.Idx) := by
  obtain ⟨-, -, -, -, -, -, e0, e1, -⟩ := idx_facts t
  funext a; apply Fin.ext
  match a with
  | ⟨0, _⟩ => show win0_1.index t (0 : Fin 2) * 1280 + 1 * o.val = o.val; omega
  | ⟨1, _⟩ => show win0_1.index t (1 : Fin 2) * 1280 + 1 * d.val = d.val; omega

theorem down_emb (t : Fin cfg0.N) (k : Fin 4) (d : Fin 1280) :
    ((cfg0.win 2).blk t).view.emb (ix3 (0 : Fin 1) k d) = (ix3 (chunkOf t) k d : S16x4x1280.Idx) := by
  obtain ⟨-, -, -, -, -, -, -, -, e0, e1, e2, -⟩ := idx_facts t
  funext a; apply Fin.ext
  match a with
  | ⟨0, _⟩ => show win0_2.index t (0 : Fin 3) * 1 + 1 * 0 = win0_4.index t (0 : Fin 3); omega
  | ⟨1, _⟩ => show win0_2.index t (1 : Fin 3) * 4 + 1 * k.val = k.val; omega
  | ⟨2, _⟩ => show win0_2.index t (2 : Fin 3) * 1280 + 1 * d.val = d.val; omega

theorem up_emb (t : Fin cfg0.N) (o : Fin 1280) (k : Fin 4) :
    ((cfg0.win 3).blk t).view.emb (ix3 (0 : Fin 1) o k) = (ix3 (chunkOf t) o k : S16x1280x4.Idx) := by
  obtain ⟨-, -, -, -, -, -, -, -, -, -, -, e0, e1, e2⟩ := idx_facts t
  funext a; apply Fin.ext
  match a with
  | ⟨0, _⟩ => show win0_3.index t (0 : Fin 3) * 1 + 1 * 0 = win0_4.index t (0 : Fin 3); omega
  | ⟨1, _⟩ => show win0_3.index t (1 : Fin 3) * 1280 + 1 * o.val = o.val; omega
  | ⟨2, _⟩ => show win0_3.index t (2 : Fin 3) * 4 + 1 * k.val = k.val; omega

/-! ## Each input block read where the output's rows say -/

theorem read_x (c : Dev nD) (t : Fin cfg0.N) (r : Fin 512) (d : Fin 1280) :
    (iblk m c 0 t : Vec Ideal S1x512x1280 .f32) (ix3 (0 : Fin 1) r d) = (V m c main_arg0 : S16x4096x1280.Idx → EReal) (ix3 (chunkOf t) (rowOf t r) d) := by
  unfold iblk
  rw [View.read_apply]
  show (V m c main_arg0 : S16x4096x1280.Idx → EReal) (((cfg0.win 0).blk t).view.emb (ix3 (0 : Fin 1) r d)) = _
  rw [x_emb]

theorem read_w (c : Dev nD) (t : Fin cfg0.N) (o d : Fin 1280) :
    (iblk m c 1 t : Vec Ideal S1280x1280 .bf16) (ix2 o d) = (V m c main_v26 : S1280x1280.Idx → EReal) (ix2 o d) := by
  unfold iblk
  rw [View.read_apply]
  show (V m c main_v26 : S1280x1280.Idx → EReal) (((cfg0.win 1).blk t).view.emb (ix2 o d)) = _
  rw [w_emb]

theorem read_down (c : Dev nD) (t : Fin cfg0.N) (k : Fin 4) (d : Fin 1280) :
    (iblk m c 2 t : Vec Ideal S1x4x1280 .bf16) (ix3 (0 : Fin 1) k d) = (V m c main_v27 : S16x4x1280.Idx → EReal) (ix3 (chunkOf t) k d) := by
  unfold iblk
  rw [View.read_apply]
  show (V m c main_v27 : S16x4x1280.Idx → EReal) (((cfg0.win 2).blk t).view.emb (ix3 (0 : Fin 1) k d)) = _
  rw [down_emb]

theorem read_up (c : Dev nD) (t : Fin cfg0.N) (o : Fin 1280) (k : Fin 4) :
    (iblk m c 3 t : Vec Ideal S1x1280x4 .bf16) (ix3 (0 : Fin 1) o k) = (V m c main_v28 : S16x1280x4.Idx → EReal) (ix3 (chunkOf t) o k) := by
  unfold iblk
  rw [View.read_apply]
  show (V m c main_v28 : S16x1280x4.Idx → EReal) (((cfg0.win 3).blk t).view.emb (ix3 (0 : Fin 1) o k)) = _
  rw [up_emb]

/-! ## What each point writes, and the array after the run -/

/-- The layer's output over the arrays as the region finds them. -/
def target (c : Dev nD) : S16x4096x1280.Idx → EReal :=
  Cert.Lora.out (V m c main_arg0) (V m c main_v26) (V m c main_v27) (V m c main_v28)

/-- Point t writes back block t of `target`. -/
theorem flushed_eq (c : Dev nD) (t : Fin cfg0.N) :
    (dats m 0 c).flushed 4 t = ((cfg0.win 4).blk t).view.read (Elt Ideal) (target m c) := by
  rw [Cert.KernelIdeal.Value.flushed4]
  unfold out0_4
  rw [View.canon_unit_zero hz3]
  simp only [View.ld_unit_zero (S := S1x512x1280) hz3, View.ld_unit_zero (S := S1280x1280) hz2,
    View.ld_unit_zero (S := S1x4x1280) hz3, View.ld_unit_zero (S := S1x1280x4) hz3]
  refine funext fun (y : S1x512x1280.Idx) => ?_
  obtain ⟨u, r, o, rfl⟩ : ∃ (u : Fin 1) (r : Fin 512) (o : Fin 1280), y = ix3 u r o := ⟨y 0, y 1, y 2, eq_ix3 y⟩
  obtain rfl : u = 0 := Subsingleton.elim _ _
  show k0_pay1 (F := Ideal) (iblk m c 0 t) (iblk m c 1 t) (iblk m c 2 t) (iblk m c 3 t) (ix3 (0 : Fin 1) r o)
    = target m c (((cfg0.win 4).blk t).view.emb (ix3 (0 : Fin 1) r o))
  rw [out_emb t r o]
  refine (Cert.KernelIdeal.Payload.stored_apply (iblk m c 0 t) (iblk m c 1 t) (iblk m c 2 t) (iblk m c 3 t) r o).trans ?_
  show _ = Cert.Lora.cell (V m c main_arg0) (V m c main_v26) (V m c main_v27) (V m c main_v28) (chunkOf t) (rowOf t r) o
  unfold Cert.Lora.cell Cert.Lora.base Cert.Lora.adapter
  refine congrArg₂ (· + ·) (Finset.sum_congr rfl fun d _ => ?_) (Finset.sum_congr rfl fun k _ => ?_)
  · rw [read_x, read_w]
  · refine congrArg₂ (· * ·) (Finset.sum_congr rfl fun d _ => ?_) (read_up m c t o k)
    rw [read_x, read_down]

/-- An index of the array is in point t's block iff each coordinate is in the block's range on its axis. -/
theorem mem_blk (t : Fin cfg0.N) (i : S16x4096x1280.Idx) :
    i ∈ ((cfg0.win 4).blk t).view.set ↔ ∀ a : Fin 3, win0_4.index t a * S1x512x1280.size a ≤ (i a).val
      ∧ (i a).val < win0_4.index t a * S1x512x1280.size a + S1x512x1280.size a := by
  show i ∈ ((View.whole main_v29).slice (win0_4.rect t)).set ↔ _
  rw [View.set_slice_whole, Rect.mem_set_unit]
  exact Iff.rfl

/-- The 128 blocks tile the output: row T of chunk g is in the block of point (g, T / 512). -/
theorem cover (i : S16x4096x1280.Idx) :
    ∃ t : Fin cfg0.N, (cfg0.win 4).flush t = true ∧ i ∈ ((cfg0.win 4).blk t).view.set := by
  have h0 : (i 0).val < 16 := (i 0).isLt
  have h1 : (i 1).val < 4096 := (i 1).isLt
  have h2 : (i 2).val < 1280 := (i 2).isLt
  obtain ⟨t, ht⟩ := idx_onto ⟨(i 0).val, h0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1280 ≤ (i 2).val ∧ (i 2).val < win0_4.index t (2 : Fin 3) * 1280 + 1280; omega

/-- The output array after the run. -/
theorem final (c : Dev nD) : (dats m 0 c).arrAt 4 cfg0.N = target m c :=
  (dats m 0 c).arrAt_eq_of_cover 4 (target m c) (fun t _ => flushed_eq m c t) cover

theorem target_eq (c : Dev nD) :
    target m c = Cert.KernelIdeal.HostSide.layer (m ((c : Thread nD τ).loc main_arg0)) (m ((c : Thread nD τ).loc main_arg1)) (m ((c : Thread nD τ).loc main_arg2))
      (m ((c : Thread nD τ).loc main_arg3)) (m ((c : Thread nD τ).loc main_arg4)) := by
  unfold target Cert.KernelIdeal.HostSide.layer
  rw [V_main_arg0, Cert.KernelIdeal.HostSide.base_eq, Cert.KernelIdeal.HostSide.down_eq, Cert.KernelIdeal.HostSide.up_eq]

/-- The kernel's run, read: the result array at `layer` of the arguments, the arguments unchanged. -/
theorem run : θ_run defs (onTc (τ := τ) (main (F := Ideal))) ⟨m, fun _ => 0, ρ⟩ fun r => ∀ c : Dev nD,
      r.2.mem ((c : Thread nD τ).loc main_v29) = Cert.KernelIdeal.HostSide.layer (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (target_eq m c)), (h c).2⟩)
    (Cert.KernelIdeal.Value.run_blocks m ρ)

end Cert.KernelIdeal.Blocks

end
-- ==== Proof.RefLine.lean ====
/-
  The reference's @main as the straight line of its 55 host operations, the calls unfolded at their sites
  (floor division by 4 with its inner select; the select of row 0 for an inactive chunk; the final select of 0 for
  an inactive chunk), and its run read back: the result is the base product plus the adapter's two products where the
  chunk is active, 0 where it is not.
-/
import proofs.«159263_j75746043232770_2_alg».proof.Proof.Gen.ReferenceIdeal
import proofs.«159263_j75746043232770_2_alg».proof.Proof.HostChain
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's operations in order. -/
abbrev ops : List (HloOp τ sig (Elt F)) :=
  [ nullary main_c (constantI S_ 32 4#32),
    -- floor_divide (ids, 4)
    TRef.unary (.of main_c : TRef sig ⟨S_, .i32⟩) main_call0.v0 id,
    TRef.unary main_call0.v0 main_call0.v1 (broadcastInDim S16 ![] bcast_S_S16),
    TRef.binary (.of main_arg1 : TRef sig ⟨S16, .i32⟩) main_call0.v1 main_call0.v2 Host.divsi,
    TRef.unary (.of main_arg1 : TRef sig ⟨S16, .i32⟩) main_call0.v3 signi,
    TRef.unary main_call0.v0 main_call0.v4 signi,
    TRef.unary main_call0.v4 main_call0.v5 (broadcastInDim S16 ![] bcast_S_S16),
    TRef.binary main_call0.v3 main_call0.v5 main_call0.v6 (cmpi .ne),
    TRef.unary main_call0.v0 main_call0.v7 (broadcastInDim S16 ![] bcast_S_S16),
    TRef.binary (.of main_arg1 : TRef sig ⟨S16, .i32⟩) main_call0.v7 main_call0.v8 Host.remsi,
    TRef.nullary main_call0.c (constantI S_ 32 0#32),
    TRef.unary main_call0.c main_call0.v9 (broadcastInDim S16 ![] bcast_S_S16),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S16 ![] bcast_S_S16),
    TRef.binary main_call0.v2 main_call0.v12 main_call0.v13 subi,
    TRef.ternary main_call0.v11 main_call0.v13 main_call0.v2 main_call0.call0.v0 select,
    -- active = ids ≥ 0
    nullary main_c_0 (constantI S_ 32 0#32),
    unary main_c_0 main_v1 (broadcastInDim S16 ![] bcast_S_S16 : (⟨S_, .i32⟩ : BufTy).Contents (Elt F) → (⟨S16, .i32⟩ : BufTy).Contents (Elt F)),
    binary main_arg1 main_v1 main_v2 (cmpi .sge : (⟨S16, .i32⟩ : BufTy).Contents (Elt F) → (⟨S16, .i32⟩ : BufTy).Contents (Elt F) → (⟨S16, .i1⟩ : BufTy).Contents (Elt F)),
    nullary main_c_1 (constantI S_ 32 0#32),
    -- where (active, quotient, 0)
    TRef.unary (.of main_c_1 : TRef sig ⟨S_, .i32⟩) main_call1.v0 id,
    TRef.unary main_call1.v0 main_call1.v1 (broadcastInDim S16 ![] bcast_S_S16),
    TRef.ternary (.of main_v2 : TRef sig ⟨S16, .i1⟩) (.of main_v0 : TRef sig ⟨S16, .i32⟩) main_call1.v1 main_call1.v2 select,
    -- the base product
    binary main_arg0 main_arg2 main_v4 ((fun l r => Host.dotGeneral dot_S16x4096x1280_S1280x1280_S16x4096x1280_2_1_01_0_n_n none l r) : (⟨S16x4096x1280, .f32⟩ : BufTy).Contents (Elt F) → (⟨S1280x1280, .f32⟩ : BufTy).Contents (Elt F) → (⟨S16x4096x1280, .f32⟩ : BufTy).Contents (Elt F)),
    -- the down table's rows
    nullary main_c_2 (constantI S_ 32 0#32),
    unary main_c_2 main_v5 (broadcastInDim S16 ![] bcast_S_S16 : (⟨S_, .i32⟩ : BufTy).Contents (Elt F) → (⟨S16, .i32⟩ : BufTy).Contents (Elt F)),
    binary main_v3 main_v5 main_v6 (cmpi .slt : (⟨S16, .i32⟩ : BufTy).Contents (Elt F) → (⟨S16, .i32⟩ : BufTy).Contents (Elt F) → (⟨S16, .i1⟩ : BufTy).Contents (Elt F)),
    nullary main_c_3 (constantI S_ 32 50#32),
    unary main_c_3 main_v7 (broadcastInDim S16 ![] bcast_S_S16 : (⟨S_, .i32⟩ : BufTy).Contents (Elt F) → (⟨S16, .i32⟩ : BufTy).Contents (Elt F)),
    binary main_v3 main_v7 main_v8 (addi : (⟨S16, .i32⟩ : BufTy).Contents (Elt F) → (⟨S16, .i32⟩ : BufTy).Contents (Elt F) → (⟨S16, .i32⟩ : BufTy).Contents (Elt F)),
    ternary main_v6 main_v8 main_v3 main_v9 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v9 main_v10 (broadcastInDim S16x1 ![0] bcast_S16_S16x1_0 : (⟨S16, .i32⟩ : BufTy).Contents (Elt F) → (⟨S16x1, .i32⟩ : BufTy).Contents (Elt F)),
    binary main_arg3 main_v10 main_v11 ((fun x i => Host.gather gather_S50x4x1280_S16x1_S16x4x1280_12_0_n_n_0_1_141280 x i) : (⟨S50x4x1280, .f32⟩ : BufTy).Contents (Elt F) → (⟨S16x1, .i32⟩ : BufTy).Contents (Elt F) → (⟨S16x4x1280, .f32⟩ : BufTy).Contents (Elt F)),
    binary main_arg0 main_v11 main_v12 ((fun l r => Host.dotGeneral dot_S16x4096x1280_S16x4x1280_S16x4096x4_2_2_1_1_0_0 none l r) : (⟨S16x4096x1280, .f32⟩ : BufTy).Contents (Elt F) → (⟨S16x4x1280, .f32⟩ : BufTy).Contents (Elt F) → (⟨S16x4096x4, .f32⟩ : BufTy).Contents (Elt F)),
    -- the up table's rows
    nullary main_c_4 (constantI S_ 32 0#32),
    unary main_c_4 main_v13 (broadcastInDim S16 ![] bcast_S_S16 : (⟨S_, .i32⟩ : BufTy).Contents (Elt F) → (⟨S16, .i32⟩ : BufTy).Contents (Elt F)),
    binary main_v3 main_v13 main_v14 (cmpi .slt : (⟨S16, .i32⟩ : BufTy).Contents (Elt F) → (⟨S16, .i32⟩ : BufTy).Contents (Elt F) → (⟨S16, .i1⟩ : BufTy).Contents (Elt F)),
    nullary main_c_5 (constantI S_ 32 50#32),
    unary main_c_5 main_v15 (broadcastInDim S16 ![] bcast_S_S16 : (⟨S_, .i32⟩ : BufTy).Contents (Elt F) → (⟨S16, .i32⟩ : BufTy).Contents (Elt F)),
    binary main_v3 main_v15 main_v16 (addi : (⟨S16, .i32⟩ : BufTy).Contents (Elt F) → (⟨S16, .i32⟩ : BufTy).Contents (Elt F) → (⟨S16, .i32⟩ : BufTy).Contents (Elt F)),
    ternary main_v14 main_v16 main_v3 main_v17 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v17 main_v18 (broadcastInDim S16x1 ![0] bcast_S16_S16x1_0 : (⟨S16, .i32⟩ : BufTy).Contents (Elt F) → (⟨S16x1, .i32⟩ : BufTy).Contents (Elt F)),
    binary main_arg4 main_v18 main_v19 ((fun x i => Host.gather gather_S50x1280x4_S16x1_S16x1280x4_12_0_n_n_0_1_112804 x i) : (⟨S50x1280x4, .f32⟩ : BufTy).Contents (Elt F) → (⟨S16x1, .i32⟩ : BufTy).Contents (Elt F) → (⟨S16x1280x4, .f32⟩ : BufTy).Contents (Elt F)),
    binary main_v12 main_v19 main_v20 ((fun l r => Host.dotGeneral dot_S16x4096x4_S16x1280x4_S16x4096x1280_2_2_1_1_0_0 none l r) : (⟨S16x4096x4, .f32⟩ : BufTy).Contents (Elt F) → (⟨S16x1280x4, .f32⟩ : BufTy).Contents (Elt F) → (⟨S16x4096x1280, .f32⟩ : BufTy).Contents (Elt F)),
    -- times the scale 1, kept where the chunk is active
    unary main_v2 main_v21 (broadcastInDim S16x1x1 ![0] bcast_S16_S16x1x1_0 : (⟨S16, .i1⟩ : BufTy).Contents (Elt F) → (⟨S16x1x1, .i1⟩ : BufTy).Contents (Elt F)),
    nullary main_cst (constant S_ .f32 0x3F800000#32),
    unary main_cst main_v22 (broadcastInDim S16x4096x1280 ![] bcast_S_S16x4096x1280 : (⟨S_, .f32⟩ : BufTy).Contents (Elt F) → (⟨S16x4096x1280, .f32⟩ : BufTy).Contents (Elt F)),
    binary main_v20 main_v22 main_v23 (mulf : (⟨S16x4096x1280, .f32⟩ : BufTy).Contents (Elt F) → (⟨S16x4096x1280, .f32⟩ : BufTy).Contents (Elt F) → (⟨S16x4096x1280, .f32⟩ : BufTy).Contents (Elt F)),
    nullary main_cst_6 (constant S_ .f32 0x00000000#32),
    TRef.unary (.of main_v21 : TRef sig ⟨S16x1x1, .i1⟩) main_call2.v0 (broadcastInDim S16x4096x1280 ![0, 1, 2] bcast_S16x1x1_S16x4096x1280_0_1_2),
    TRef.unary (.of main_cst_6 : TRef sig ⟨S_, .f32⟩) main_call2.v1 (broadcastInDim S16x4096x1280 ![] bcast_S_S16x4096x1280),
    TRef.ternary main_call2.v0 (.of main_v23 : TRef sig ⟨S16x4096x1280, .f32⟩) main_call2.v1 main_call2.v2 select,
    binary main_v4 main_v24 main_v25 (addf : (⟨S16x4096x1280, .f32⟩ : BufTy).Contents (Elt F) → (⟨S16x4096x1280, .f32⟩ : BufTy).Contents (Elt F) → (⟨S16x4096x1280, .f32⟩ : BufTy).Contents (Elt F)) ]

set_option maxRecDepth 2048 in
/-- @main is that straight line: the called functions unfolded at their calls and sequencing reassociated. -/
theorem main_eq (c : Dev nD) : main (F := F) c = seq ops := by
  simp only [main, fn_floor_divide.body, fn_where.body, fn_where_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub ..,
    unary_bufs_sub .., unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub .., nullary_bufs_sub ..,
    unary_bufs_sub .., binary_bufs_sub .., ternary_bufs_sub ..,
    nullary_bufs_sub .., unary_bufs_sub .., binary_bufs_sub .., nullary_bufs_sub ..,
    unary_bufs_sub .., unary_bufs_sub .., ternary_bufs_sub ..,
    binary_bufs_sub ..,
    nullary_bufs_sub .., unary_bufs_sub .., binary_bufs_sub .., nullary_bufs_sub .., unary_bufs_sub .., binary_bufs_sub .., ternary_bufs_sub ..,
    unary_bufs_sub .., binary_bufs_sub .., binary_bufs_sub ..,
    nullary_bufs_sub .., unary_bufs_sub .., binary_bufs_sub .., nullary_bufs_sub .., unary_bufs_sub .., binary_bufs_sub .., ternary_bufs_sub ..,
    unary_bufs_sub .., binary_bufs_sub .., binary_bufs_sub ..,
    unary_bufs_sub .., nullary_bufs_sub .., unary_bufs_sub .., binary_bufs_sub .., nullary_bufs_sub ..,
    unary_bufs_sub .., unary_bufs_sub .., ternary_bufs_sub ..,
    binary_bufs_sub ..⟩

/-- Every weakly fair execution of @main terminates, each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The result as a term of the arguments: the base product plus, where the chunk is active, the adapter's two products
    times the scale 1, and 0 where it is not. -/
def result (x : FVec F S16x4096x1280 .f32) (ids : IVec S16 32) (w : FVec F S1280x1280 .f32) (wd : FVec F S50x4x1280 .f32)
    (wu : FVec F S50x1280x4 .f32) : FVec F S16x4096x1280 .f32 :=
  addf (Host.dotGeneral dot_S16x4096x1280_S1280x1280_S16x4096x1280_2_1_01_0_n_n none x w)
    (select
      (broadcastInDim S16x4096x1280 ![0, 1, 2] bcast_S16x1x1_S16x4096x1280_0_1_2
        (broadcastInDim S16x1x1 ![0] bcast_S16_S16x1x1_0 (Cert.Lora.active bcast_S_S16 ids)))
      (mulf
        (Host.dotGeneral dot_S16x4096x4_S16x1280x4_S16x4096x1280_2_2_1_1_0_0 none
          (Host.dotGeneral dot_S16x4096x1280_S16x4x1280_S16x4096x4_2_2_1_1_0_0 none x
            (Host.gather gather_S50x4x1280_S16x1_S16x4x1280_12_0_n_n_0_1_141280 wd (Cert.Lora.rowIdx bcast_S_S16 bcast_S16_S16x1_0 ids)))
          (Host.gather gather_S50x1280x4_S16x1_S16x1280x4_12_0_n_n_0_1_112804 wu (Cert.Lora.rowIdx bcast_S_S16 bcast_S16_S16x1_0 ids)))
        (broadcastInDim S16x4096x1280 ![] bcast_S_S16x4096x1280 (constant S_ .f32 0x3F800000#32)))
      (broadcastInDim S16x4096x1280 ![] bcast_S_S16x4096x1280 (constant S_ .f32 0x00000000#32)))

/-- The run, read: the result buffer at `result` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v25).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_fold m ρ)

end Cert.ReferenceIdeal.Line

end
-- ==== Proof.LibInDimRows.lean ====
/-
  The host's broadcast_in_dim of a per-row quantity over a rank-3 array, read at an index (any element type):
  a vector [a] placed on axis 0 of a column [a,1,1]; a column [a,1,1] spread over [a,b,c]; and a scalar spread
  over any shape. Entry (g, ·, ·) of each reads entry g (resp. the one entry) of the operand.
-/
import Idealize.ShloMosaic.Lib.Pipeline.Value
import Idealize.ShloMosaic.Lib.ValueIdx

namespace Cert.LibInDimRows

open Idealize.ShloMosaic Idealize.ShloMosaic.ValueIdx

variable {α : Type}

/-- A vector [a] as a column [a,1,1]: entry (g, u, v) is entry g. -/
theorem vec_col_apply {a : ℕ} (h : (⟨1, ![a]⟩ : Shape).BroadcastsInDim ⟨3, ![a, 1, 1]⟩ (![0] : Fin 1 → Fin 3))
    (x : (⟨1, ![a]⟩ : Shape).Idx → α) (g : Fin a) (u v : Fin 1) :
    broadcastInDim ⟨3, ![a, 1, 1]⟩ ![0] h x (ix3 g u v) = x (ix1 g) :=
  broadcastInDim_apply _ h x _ _ (fun d => by
    match d with
    | ⟨0, _⟩ =>
      show g.val = if a = 1 then 0 else g.val
      split_ifs with h1
      · have := g.isLt; omega
      · rfl)

/-- A column [a,1,1] spread over [a,b,c]: entry (g, k, d) is entry (g, 0, 0). -/
theorem col_spread_apply {a b c : ℕ} (h : (⟨3, ![a, 1, 1]⟩ : Shape).BroadcastsInDim ⟨3, ![a, b, c]⟩ (![0, 1, 2] : Fin 3 → Fin 3))
    (x : (⟨3, ![a, 1, 1]⟩ : Shape).Idx → α) (g : Fin a) (k : Fin b) (d : Fin c) :
    broadcastInDim ⟨3, ![a, b, c]⟩ ![0, 1, 2] h x (ix3 g k d) = x (ix3 g (0 : Fin 1) (0 : Fin 1)) :=
  broadcastInDim_apply _ h x _ _ (fun e => by
    match e with
    | ⟨0, _⟩ =>
      show g.val = if a = 1 then 0 else g.val
      split_ifs with h1
      · have := g.isLt; omega
      · rfl
    | ⟨1, _⟩ => show 0 = if (1 : ℕ) = 1 then 0 else k.val; rw [if_pos rfl]
    | ⟨2, _⟩ => show 0 = if (1 : ℕ) = 1 then 0 else d.val; rw [if_pos rfl])

/-- A scalar spread over any shape: every entry is the scalar. -/
theorem scalar_spread_apply {t : Shape} (h : (⟨0, ![]⟩ : Shape).BroadcastsInDim t (![] : Fin 0 → Fin t.rank))
    (x : (⟨0, ![]⟩ : Shape).Idx → α) (i : t.Idx) : broadcastInDim t ![] h x i = x ix0 :=
  broadcastInDim_apply _ h x _ _ (fun e => e.elim0)

end Cert.LibInDimRows
-- ==== Proof.RefValue.lean ====
/-
  The reference's result is the layer the kernel's program computes, entry by entry: at (g, t, o) the reference adds to the
  base product the adapter's two batched products times the scale 1 where chunk g is active and 0 where it is not; the
  kernel's program feeds its one formula tables already multiplied by the activity. The integer side (which chunks are active,
  which rows are gathered) is the same operations in both and is never opened.
-/
import proofs.«159263_j75746043232770_2_alg».proof.Proof.RefLine
import proofs.«159263_j75746043232770_2_alg».proof.Proof.KernelHost
import proofs.«159263_j75746043232770_2_alg».proof.Proof.LoraSpec
import proofs.«159263_j75746043232770_2_alg».proof.Proof.LibRowDots
import proofs.«159263_j75746043232770_2_alg».proof.Proof.LibInDimRows
import Idealize.ShloMosaic.PureOps.Ideal.Laws
import Idealize.ShloMosaic.PureOps.IdealRules

noncomputable section

namespace Cert.ReferenceIdeal.LayerValue

open Cert.ReferenceIdeal Cert.ReferenceIdeal.Gen Idealize.ShloMosaic Idealize.ShloMosaic.ValueIdx
open Cert.LibRowDots Cert.LibInDimRows

/-- The scale's pattern denotes 1. -/
theorem scale_one : Ideal.ofBits .f32 0x3F800000#32 = 1 := IdealRules.sign_bit.ideal_onePat .f32

section
variable (x : FVec Ideal S16x4096x1280 .f32) (ids : IVec S16 32) (w : FVec Ideal S1280x1280 .f32)
  (wd : FVec Ideal S50x4x1280 .f32) (wu : FVec Ideal S50x1280x4 .f32)

/-- Chunk rows of the down table, as the reference gathers them. -/
abbrev downTab : FVec Ideal S16x4x1280 .f32 :=
  Host.gather gather_S50x4x1280_S16x1_S16x4x1280_12_0_n_n_0_1_141280 wd (Cert.Lora.rowIdx bcast_S_S16 bcast_S16_S16x1_0 ids)

/-- Chunk rows of the up table, as the reference gathers them. -/
abbrev upTab : FVec Ideal S16x1280x4 .f32 :=
  Host.gather gather_S50x1280x4_S16x1_S16x1280x4_12_0_n_n_0_1_112804 wu (Cert.Lora.rowIdx bcast_S_S16 bcast_S16_S16x1_0 ids)

/-- The kernel's prepared down table at (g, k, d): the gathered entry times chunk g's activity. -/
theorem down_apply (g : Fin 16) (k : Fin 4) (d : Fin 1280) :
    Cert.KernelIdeal.HostSide.downRows ids wd (ix3 g k d)
      = downTab ids wd (ix3 g k d) * (((Cert.Lora.active bcast_S_S16 ids (ix1 g)).toNat : ℝ) : EReal) := by
  unfold Cert.KernelIdeal.HostSide.downRows
  refine congrArg₂ (fun a b : EReal => a * b) (rfl : _ = downTab ids wd (ix3 g k d)) ?_
  refine (col_spread_apply _ _ g k d).trans ?_
  unfold Cert.KernelIdeal.HostSide.activity
  refine (vec_col_apply _ _ g 0 0).trans ?_
  rfl

/-- The kernel's prepared up table at (g, o, k): the gathered entry times the scale times chunk g's activity. -/
theorem up_apply (g : Fin 16) (o : Fin 1280) (k : Fin 4) :
    Cert.KernelIdeal.HostSide.upRows ids wu (ix3 g o k)
      = (upTab ids wu (ix3 g o k) * Ideal.ofBits .f32 0x3F800000#32) * (((Cert.Lora.active bcast_S_S16 ids (ix1 g)).toNat : ℝ) : EReal) := by
  unfold Cert.KernelIdeal.HostSide.upRows
  refine congrArg₂ (fun a b : EReal => a * b)
    (congrArg₂ (fun a b : EReal => a * b) (rfl : _ = upTab ids wu (ix3 g o k)) ?_) ?_
  · exact scalar_spread_apply _ _ _
  · refine (col_spread_apply _ _ g o k).trans ?_
    unfold Cert.KernelIdeal.HostSide.activity
    refine (vec_col_apply _ _ g 0 0).trans ?_
    rfl

/-- The reference's base product at (g, t, o). -/
theorem base_apply (g : Fin 16) (t : Fin 4096) (o : Fin 1280) :
    Host.dotGeneral dot_S16x4096x1280_S1280x1280_S16x4096x1280_2_1_01_0_n_n none x w (ix3 g t o)
      = Cert.Lora.base x (truncf .bf16 w Cert.KernelIdeal.Gen.bitsLt_bf16_f32 : FVec Ideal S1280x1280 .bf16) g t o :=
  dot_shared dot_S16x4096x1280_S1280x1280_S16x4096x1280_2_1_01_0_n_n_wf _ rfl none x w g t o

/-- The reference's two batched products at (g, t, o) are the adapter's term over the gathered tables. -/
theorem adapter_apply (g : Fin 16) (t : Fin 4096) (o : Fin 1280) :
    Host.dotGeneral dot_S16x4096x4_S16x1280x4_S16x4096x1280_2_2_1_1_0_0 none
        (Host.dotGeneral dot_S16x4096x1280_S16x4x1280_S16x4096x4_2_2_1_1_0_0 none x (downTab ids wd)) (upTab ids wu) (ix3 g t o)
      = Cert.Lora.adapter x (downTab ids wd) (upTab ids wu) g t o := by
  unfold Cert.Lora.adapter
  refine (dot_batched dot_S16x4096x4_S16x1280x4_S16x4096x1280_2_2_1_1_0_0_wf _ rfl none _ (upTab ids wu) g t o).trans
    (Finset.sum_congr rfl fun k _ => ?_)
  exact congrArg (· * upTab ids wu (ix3 g o k))
    (dot_batched dot_S16x4096x1280_S16x4x1280_S16x4096x4_2_2_1_1_0_0_wf _ rfl none x (downTab ids wd) g t k)

/-- A select between equal words and equal branches. -/
theorem select_congr {α : Type} {c c' : BitVec 1} {a a' b b' : α} (hc : c = c') (ha : a = a') (hb : b = b') :
    Scalar.select c a b = Scalar.select c' a' b' := by
  subst hc ha hb; rfl

/-- The reference's result is the kernel's program's layer. -/
theorem result_eq : Cert.ReferenceIdeal.Line.result x ids w wd wu = Cert.KernelIdeal.HostSide.layer x ids w wd wu := by
  funext i
  obtain ⟨g, t, o, rfl⟩ : ∃ (g : Fin 16) (t : Fin 4096) (o : Fin 1280), i = ix3 g t o := ⟨i 0, i 1, i 2, eq_ix3 i⟩
  show _ = Cert.Lora.base x _ g t o + Cert.Lora.adapter x (Cert.KernelIdeal.HostSide.downRows ids wd) (Cert.KernelIdeal.HostSide.upRows ids wu) g t o
  rw [Cert.Lora.adapter_masked x (downTab ids wd) _ (upTab ids wu) _ (Ideal.ofBits .f32 0x3F800000#32) scale_one g t o
    (Cert.Lora.active bcast_S_S16 ids (ix1 g)) (fun k d => down_apply ids wd g k d) (fun k => up_apply ids wu g o k)]
  unfold Cert.ReferenceIdeal.Line.result
  refine (ValueIdx.addf_apply _ _ _).trans (congrArg₂ (fun a b : EReal => a + b) (base_apply x w g t o) ?_)
  refine (ValueIdx.select_apply _ _ _ _).trans (select_congr ?_ ?_ ?_)
  · exact (col_spread_apply _ _ g t o).trans (vec_col_apply _ _ g 0 0)
  · exact (ValueIdx.mulf_apply _ _ _).trans
      (congrArg₂ (fun a b : EReal => a * b) (adapter_apply x ids wd wu g t o) (scalar_spread_apply _ _ _))
  · exact (scalar_spread_apply _ _ _).trans Ideal.ofBits_zero_f32

end

end Cert.ReferenceIdeal.LayerValue

end
-- ==== Proof.lean ====
/-
  A linear layer with per-chunk low-rank adapters: for chunk g (one adapter id per chunk), token t and output feature o,
      out(g,t,o) = Σ_d x(g,t,d)·W(o,d) + [id_g ≥ 0] · Σ_k (Σ_d x(g,t,d)·Wd(row_g,k,d)) · Wu(row_g,o,k),
  row_g = floor(id_g / 4) for an active chunk. The kernel tiles the tokens of each chunk into 8 blocks of 512 rows, and per
  block takes three products of rows against rows; its wrapper gathers the two adapter tables at the chunks' rows and
  multiplies them by the chunk's 0/1 activity beforehand (the up table also by the scale 1). The reference takes the same
  three products as whole-array contractions, multiplies the adapter term by the scale 1 and selects it where the chunk is
  active, 0 elsewhere.

  On the extended reals the two are one function of the arguments: 1 is neutral for the product, and for an inactive chunk
  the zeroed down table makes every inner sum 0 and 0 annihilates the product, so the adapter term is 0 on both sides; no
  entry has to be finite for this, and the precondition is never opened. The adapter ids enter both programs through the
  same integer operations (the comparison with 0, the floor division, the wrap of a negative row, the gathers), which are
  compared as they stand and never evaluated.

  The pieces: LoraSpec (the layer entry by entry, and the 0/1 law); HostChain (the shared integer side); LibRowDots and
  LibInDimRows (products of rows against rows, and a per-row quantity spread over an array, read at an index);
  KernelHost (what the wrapper hands the kernel), KernelPayload (what one block stores), KernelBlocks (the 128 blocks tile
  the output); RefLine (the reference as a straight line of operations, and its run), RefValue (its result is the layer).
-/
import proofs.«159263_j75746043232770_2_alg».proof.Defs
import proofs.«159263_j75746043232770_2_alg».proof.Proof.Gen.Kernel
import proofs.«159263_j75746043232770_2_alg».proof.Proof.Gen.Kernel.Skeleton
import proofs.«159263_j75746043232770_2_alg».proof.Proof.Gen.Kernel.Launch
import proofs.«159263_j75746043232770_2_alg».proof.Proof.Gen.Kernel.Points
import proofs.«159263_j75746043232770_2_alg».proof.Proof.Gen.Kernel.Frame
import proofs.«159263_j75746043232770_2_alg».proof.Proof.Gen.KernelIdeal
import proofs.«159263_j75746043232770_2_alg».proof.Proof.Gen.KernelIdeal.Skeleton
import proofs.«159263_j75746043232770_2_alg».proof.Proof.Gen.KernelIdeal.Launch
import proofs.«159263_j75746043232770_2_alg».proof.Proof.Gen.KernelIdeal.Points
import proofs.«159263_j75746043232770_2_alg».proof.Proof.Gen.KernelIdeal.Frame
import proofs.«159263_j75746043232770_2_alg».proof.Proof.Gen.ReferenceIdeal
import proofs.«159263_j75746043232770_2_alg».proof.Proof.Gen.Pre_finite_inputs
import proofs.«159263_j75746043232770_2_alg».proof.Proof.KernelBlocks
import proofs.«159263_j75746043232770_2_alg».proof.Proof.RefValue
import Idealize.ShloMosaic.Adequacy
import Idealize.ShloMosaic.Init

noncomputable section

namespace Cert.Proof

open Idealize.ShloMosaic Idealize.SL.Sem

/-- The kernel's program as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.Line.run (F := Ideal) m ρ)

/-- The idealization rewrote nothing. -/
theorem preserves : Cert.preserves_Kernel_KernelIdeal := trivial

/-- Both programs end with the layer's output, the kernel's by its blocks and the reference's by its line of operations;
    from memories agreeing on the arguments these are one array. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Line.run (F := Ideal) m' ρ')
  obtain ⟨e0, e1, e2, e3, e4⟩ := hagree c
  rw [e0, e1, e2, e3, e4]
  exact Cert.ReferenceIdeal.LayerValue.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
